-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2096 : Shape := ⟨2, ![1024, 2096]⟩
abbrev S6x2096 : Shape := ⟨2, ![6, 2096]⟩
abbrev S6x2096x2096 : Shape := ⟨3, ![6, 2096, 2096]⟩
abbrev S1024 : Shape := ⟨1, ![1024]⟩
abbrev S_ : Shape := ⟨0, ![]⟩

class Facts : Prop where
  bcast_S_S1024x2096 : S_.BroadcastsInDim S1024x2096 (![] : Fin 0 → Fin S1024x2096.rank)
  reducesTo_S1024x2096_S_d0_1 : S1024x2096.ReducesTo [0, 1] S_
  h_S_ : 0 < S_.numel
  bcast_S_S6x2096 : S_.BroadcastsInDim S6x2096 (![] : Fin 0 → Fin S6x2096.rank)
  reducesTo_S6x2096_S_d0_1 : S6x2096.ReducesTo [0, 1] S_
  bcast_S_S6x2096x2096 : S_.BroadcastsInDim S6x2096x2096 (![] : Fin 0 → Fin S6x2096x2096.rank)
  reducesTo_S6x2096x2096_S_d0_1_2 : S6x2096x2096.ReducesTo [0, 1, 2] S_

variable [Facts]

def fn {F : FTy → Type} [FloatOps F] (main_arg0 : FVec F S1024x2096 .f32) (main_arg1 : FVec F S6x2096 .f32) (main_arg2 : FVec F S6x2096x2096 .f32) (main_arg3 : IVec S1024 32) : IVec S_ 1 :=
  let main_v0 : FVec F S1024x2096 .f32 := Host.absf main_arg0
  let main_cst : FVec F S_ .f32 := constant S_ .f32 0x7F800000#32
  let main_v1 : FVec F S1024x2096 .f32 := broadcastInDim S1024x2096 ![] bcast_S_S1024x2096 main_cst
  let main_v2 : IVec S1024x2096 1 := cmpf .olt main_v0 main_v1
  let main_c : IVec S_ 1 := constantI S_ 1 1#1
  let main_v3 : IVec S_ 1 := (fun x v => Host.reduce IntOp.andi x v reducesTo_S1024x2096_S_d0_1 h_S_) main_v2 main_c
  let main_v4 : FVec F S6x2096 .f32 := Host.absf main_arg1
  let main_cst_0 : FVec F S_ .f32 := constant S_ .f32 0x7F800000#32
  let main_v5 : FVec F S6x2096 .f32 := broadcastInDim S6x2096 ![] bcast_S_S6x2096 main_cst_0
  let main_v6 : IVec S6x2096 1 := cmpf .olt main_v4 main_v5
  let main_c_1 : IVec S_ 1 := constantI S_ 1 1#1
  let main_v7 : IVec S_ 1 := (fun x v => Host.reduce IntOp.andi x v reducesTo_S6x2096_S_d0_1 h_S_) main_v6 main_c_1
  let main_v8 : IVec S_ 1 := andi main_v3 main_v7
  let main_v9 : FVec F S6x2096x2096 .f32 := Host.absf main_arg2
  let main_cst_2 : FVec F S_ .f32 := constant S_ .f32 0x7F800000#32
  let main_v10 : FVec F S6x2096x2096 .f32 := broadcastInDim S6x2096x2096 ![] bcast_S_S6x2096x2096 main_cst_2
  let main_v11 : IVec S6x2096x2096 1 := cmpf .olt main_v9 main_v10
  let main_c_3 : IVec S_ 1 := constantI S_ 1 1#1
  let main_v12 : IVec S_ 1 := (fun x v => Host.reduce IntOp.andi x v reducesTo_S6x2096x2096_S_d0_1_2 h_S_) main_v11 main_c_3
  let main_v13 : IVec S_ 1 := andi main_v8 main_v12
  main_v13
-- ==== Kernel.lean ====
abbrev S1024x2096 : Shape := ⟨2, ![1024, 2096]⟩
abbrev S6x2096 : Shape := ⟨2, ![6, 2096]⟩
abbrev S6x2096x2096 : Shape := ⟨3, ![6, 2096, 2096]⟩
abbrev S1024 : Shape := ⟨1, ![1024]⟩
abbrev S_ : Shape := ⟨0, ![]⟩
abbrev S1024x2304 : Shape := ⟨2, ![1024, 2304]⟩
abbrev S6x2304 : Shape := ⟨2, ![6, 2304]⟩
abbrev S6x2304x2304 : Shape := ⟨3, ![6, 2304, 2304]⟩
abbrev S9x6x1024 : Shape := ⟨3, ![9, 6, 1024]⟩
abbrev S6x256x256 : Shape := ⟨3, ![6, 256, 256]⟩
abbrev S1x6x1024 : Shape := ⟨3, ![1, 6, 1024]⟩
abbrev S6x1024x256 : Shape := ⟨3, ![6, 1024, 256]⟩
abbrev S1024x256 : Shape := ⟨2, ![1024, 256]⟩
abbrev S6x256 : Shape := ⟨2, ![6, 256]⟩
abbrev S1x1024x256 : Shape := ⟨3, ![1, 1024, 256]⟩
abbrev S6x1x256 : Shape := ⟨3, ![6, 1, 256]⟩
abbrev S6x1024 : Shape := ⟨2, ![6, 1024]⟩
abbrev S1024x1 : Shape := ⟨2, ![1024, 1]⟩
abbrev S1024x2 : Shape := ⟨2, ![1024, 2]⟩

abbrev nBuf : Space → Nat
  | .hbm => 36
  | .vmem => 7
  | .smem => 0
  | _ => 0

abbrev bufTy : (tb : Table) → Fin (tcTables nBuf tb) → BufTy
  | .hbm, ⟨0, _⟩ => ⟨S1024x2096, .f32⟩
  | .hbm, ⟨1, _⟩ => ⟨S6x2096, .f32⟩
  | .hbm, ⟨2, _⟩ => ⟨S6x2096x2096, .f32⟩
  | .hbm, ⟨3, _⟩ => ⟨S1024, .i32⟩
  | .hbm, ⟨4, _⟩ => ⟨S_, .i32⟩
  | .hbm, ⟨5, _⟩ => ⟨S_, .f32⟩
  | .hbm, ⟨6, _⟩ => ⟨S1024x2304, .f32⟩
  | .hbm, ⟨7, _⟩ => ⟨S_, .i32⟩
  | .hbm, ⟨8, _⟩ => ⟨S_, .f32⟩
  | .hbm, ⟨9, _⟩ => ⟨S6x2304, .f32⟩
  | .hbm, ⟨10, _⟩ => ⟨S6x2096x2096, .bf16⟩
  | .hbm, ⟨11, _⟩ => ⟨S_, .i32⟩
  | .hbm, ⟨12, _⟩ => ⟨S_, .bf16⟩
  | .hbm, ⟨13, _⟩ => ⟨S6x2304x2304, .bf16⟩
  | .hbm, ⟨14, _⟩ => ⟨S9x6x1024, .f32⟩
  | .hbm, ⟨15, _⟩ => ⟨S_, .f32⟩
  | .hbm, ⟨16, _⟩ => ⟨S6x1024, .f32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S1024, .i32⟩
  | .hbm, ⟨25, _⟩ => ⟨S_, .i32⟩
  | .hbm, ⟨26, _⟩ => ⟨S1024, .i32⟩
  | .hbm, ⟨27, _⟩ => ⟨S1024, .i1⟩
  | .hbm, ⟨28, _⟩ => ⟨S_, .i32⟩
  | .hbm, ⟨29, _⟩ => ⟨S1024, .i32⟩
  | .hbm, ⟨30, _⟩ => ⟨S1024, .i32⟩
  | .hbm, ⟨31, _⟩ => ⟨S1024, .i32⟩
  | .hbm, ⟨32, _⟩ => ⟨S1024x1, .i32⟩
  | .hbm, ⟨33, _⟩ => ⟨S1024x1, .i32⟩
  | .hbm, ⟨34, _⟩ => ⟨S1024x2, .i32⟩
  | .hbm, ⟨35, _⟩ => ⟨S1024, .f32⟩
  | .local _ .vmem, ⟨0, _⟩ => ⟨S1024x2304, .f32⟩
  | .local _ .vmem, ⟨1, _⟩ => ⟨S6x2304, .f32⟩
  | .local _ .vmem, ⟨2, _⟩ => ⟨S6x256x256, .bf16⟩
  | .local _ .vmem, ⟨3, _⟩ => ⟨S6x256x256, .bf16⟩
  | .local _ .vmem, ⟨4, _⟩ => ⟨S1x6x1024, .f32⟩
  | .local _ .vmem, ⟨5, _⟩ => ⟨S1x6x1024, .f32⟩
  | .local _ .vmem, ⟨6, _⟩ => ⟨S6x1024x256, .f32⟩
  | _, _ => ⟨S1024x2096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_c_1 : Ref sig .tc := ⟨.hbm, 11, rfl⟩
abbrev main_call2_v0 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_c_2 : Ref sig .tc := ⟨.hbm, 18, rfl⟩
abbrev main_v7 : Ref sig .tc := ⟨.hbm, 19, rfl⟩
abbrev main_v8 : Ref sig .tc := ⟨.hbm, 20, rfl⟩
abbrev main_c_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_4 : Ref sig .tc := ⟨.hbm, 25, rfl⟩
abbrev main_v12 : Ref sig .tc := ⟨.hbm, 26, rfl⟩
abbrev main_v13 : Ref sig .tc := ⟨.hbm, 27, rfl⟩
abbrev main_c_5 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![9, 9], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 2 → Nat :=
  let c0 : Index := 0#32
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  ![0, v5.toNat]
def k0_off2 (i : grid0.Coords) : Fin 2 → Nat :=
  let c0_1 : Index := 0#32
  let arg1 : BitVec 32 := BitVec.ofNat 32 (i 1).val
  let c256_i32 : BitVec 32 := 256#32
  let v3 : BitVec 32 := Scalar.muli arg1 c256_i32
  let v4 : BitVec 32 := v3
  let v8 : Index := Scalar.indexCast v4
  ![0, v8.toNat]
def k0_cond2 (i : grid0.Coords) : BitVec 1 :=
  let arg1 : BitVec 32 := BitVec.ofNat 32 (i 1).val
  let c8_i32 : BitVec 32 := 8#32
  let v25 : BitVec 1 := Scalar.cmpi .eq arg1 c8_i32
  let v26 : BitVec 32 := Scalar.extui v25
  let c0_i32_11 : BitVec 32 := 0#32
  let v27 : BitVec 1 := Scalar.cmpi .ne v26 c0_i32_11
  v27

def k0_mult2 (i : grid0.Coords) : BitVec 32 :=
  let arg0 : BitVec 32 := BitVec.ofNat 32 (i 0).val
  let c256_i32_12 : BitVec 32 := 256#32
  let v28 : BitVec 32 := Scalar.muli arg0 c256_i32_12
  v28
def k0_off3 (i : grid0.Coords) : Fin 2 → Nat :=
  let c0_13 : Index := 0#32
  let arg0 : BitVec 32 := BitVec.ofNat 32 (i 0).val
  let c256_i32_12 : BitVec 32 := 256#32
  let v28 : BitVec 32 := Scalar.muli arg0 c256_i32_12
  let v29 : BitVec 32 := v28
  let v30 : Index := Scalar.indexCast v29
  ![0, v30.toNat]
def k0_off4 (i : grid0.Coords) : Fin 2 → Nat :=
  let c0_14 : Index := 0#32
  let arg0 : BitVec 32 := BitVec.ofNat 32 (i 0).val
  let c256_i32_12 : BitVec 32 := 256#32
  let v28 : BitVec 32 := Scalar.muli arg0 c256_i32_12
  let v29 : BitVec 32 := v28
  let v33 : Index := Scalar.indexCast v29
  ![0, v33.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x2304 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S6x2304 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S6x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  pads_S1024x2096_S1024x2304_000_02080 : S1024x2096.Pads (![0, 0] : Fin 2 → Nat) ![0, 208] ![0, 0] S1024x2304
  h_S_ : 0 < S_.numel
  pads_S6x2096_S6x2304_000_02080 : S6x2096.Pads (![0, 0] : Fin 2 → Nat) ![0, 208] ![0, 0] S6x2304
  bitsLt_bf16_f32 : FTy.bits .bf16 < FTy.bits .f32
  pads_S6x2096x2096_S6x2304x2304_000_02080_02080 : S6x2096x2096.Pads (![0, 0, 0] : Fin 3 → Nat) ![0, 208, 208] ![0, 0, 0] S6x2304x2304
  inb_S6x1024x256_S6x1024x256_0_0_0 : ∀ a, (![0, 0, 0] : Fin 3 → Nat) a + S6x1024x256.size a ≤ S6x1024x256.size a
  h_S6x1024x256 : 0 < S6x1024x256.numel
  shapeCasts_S6x1024x256_S6x1024x256 : S6x1024x256.ShapeCasts S6x1024x256
  h_S1024x256 : 0 < S1024x256.numel
  shapeCasts_S1024x256_S1024x256 : S1024x256.ShapeCasts S1024x256
  h_S6x256 : 0 < S6x256.numel
  shapeCasts_S6x256_S6x256 : S6x256.ShapeCasts S6x256
  shapeCasts_S1024x256_S1x1024x256 : S1024x256.ShapeCasts S1x1024x256
  shapeCasts_S6x256_S6x1x256 : S6x256.ShapeCasts S6x1x256
  broadcasts_S1x1024x256_S6x1024x256 : S1x1024x256.Broadcasts S6x1024x256
  broadcasts_S6x1x256_S6x1024x256 : S6x1x256.Broadcasts S6x1024x256
  inb_S6x256x256_S6x256x256_0_0_0 : ∀ a, (![0, 0, 0] : Fin 3 → Nat) a + S6x256x256.size a ≤ S6x256x256.size a
  h_S6x256x256 : 0 < S6x256x256.numel
  shapeCasts_S6x256x256_S6x256x256 : S6x256x256.ShapeCasts S6x256x256
  reduces_S6x1024x256_S6x1024 : S6x1024x256.Reduces [2] S6x1024
  shapeCasts_S6x1024_S1x6x1024 : S6x1024.ShapeCasts S1x6x1024
  inb_S1x6x1024_S1x6x1024_0_0_0 : ∀ a, (![0, 0, 0] : Fin 3 → Nat) a + S1x6x1024.size a ≤ S1x6x1024.size a
  h_S1x6x1024 : 0 < S1x6x1024.numel
  reducesTo_S9x6x1024_S6x1024_d0 : S9x6x1024.ReducesTo [0] S6x1024
  bcast_S_S1024 : S_.BroadcastsInDim S1024 (![] : Fin 0 → Fin S1024.rank)
  bcast_S1024_S1024x1_0 : S1024.BroadcastsInDim S1024x1 (![0] : Fin 1 → Fin S1024x1.rank)
  concatenates_S1024x1_S1024x1_S1024x2_d1 : Shape.Concatenates [S1024x1, S1024x1] S1024x2 1
  dot_S6x1024x256_S6x256x256_S6x1024x256_2_1_1_2_0_0_wf : DotDims.WF S6x1024x256 S6x256x256 S6x1024x256 [2] [1] [1] [2] [0] [0]
  gather_S6x1024_S1024x2_S1024_n_01_n_n_01_1_11_wf : GatherDims.WF S6x1024 S1024x2 S1024 [] [0, 1] [] [0, 1] [] 1 ![1, 1]
  hrank0 : 0 < grid0.rank
  k0_mult1_dvd : ∀ i : grid0.Coords, 256 ∣ (k0_mult1 i).toNat
  k0_off1_inb : ∀ i : grid0.Coords, ∀ a, (k0_off1 i) a + S1024x256.size a ≤ S1024x2304.size a
  k0_off2_inb : ∀ i : grid0.Coords, ∀ a, (k0_off2 i) a + S6x256.size a ≤ S6x2304.size a
  k0_mult2_dvd : ∀ i : grid0.Coords, ∀ (k0_h2 : k0_cond2 i = 1#1), 256 ∣ (k0_mult2 i).toNat
  k0_off3_inb : ∀ i : grid0.Coords, ∀ (k0_h2 : k0_cond2 i = 1#1), ∀ a, (k0_off3 i) a + S1024x256.size a ≤ S1024x2304.size a
  k0_off4_inb : ∀ i : grid0.Coords, ∀ (k0_h2 : k0_cond2 i = 1#1), ∀ a, (k0_off4 i) a + S6x256.size a ≤ S6x2304.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x2304.size a ≤ S1024x2304.size a
  hwx0_0 : ∀ i : grid0.Coords, EltTy.bits .f32 = 32 ∨ (Rect.block (s := S1024x2304) S1024x2304.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x2304.size a ≤ S6x2304.size a
  hwx0_1 : ∀ i : grid0.Coords, EltTy.bits .f32 = 32 ∨ (Rect.block (s := S6x2304) S6x2304.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6x256x256.size a ≤ S6x2304x2304.size a
  hwx0_2 : ∀ i : grid0.Coords, EltTy.bits .bf16 = 32 ∨ (Rect.block (s := S6x2304x2304) S6x256x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x6x1024.size a ≤ S9x6x1024.size a
  hwx0_3 : ∀ i : grid0.Coords, EltTy.bits .f32 = 32 ∨ (Rect.block (s := S9x6x1024) S1x6x1024.size (cc0_transform_3 i) (hinb0_3 i)).WholeWords (EltTy.packing .f32)

variable [Facts₀]

def dot_S6x1024x256_S6x256x256_S6x1024x256_2_1_1_2_0_0 : DotDims S6x1024x256 S6x256x256 S6x1024x256 where
  lhsContracting := [2]
  rhsContracting := [1]
  lhsNonContracting := [1]
  rhsNonContracting := [2]
  lhsBatch := [0]
  rhsBatch := [0]
  wf := dot_S6x1024x256_S6x256x256_S6x1024x256_2_1_1_2_0_0_wf
def gather_S6x1024_S1024x2_S1024_n_01_n_n_01_1_11 : GatherDims S6x1024 S1024x2 S1024 where
  offsetDims := []
  collapsedSliceDims := [0, 1]
  operandBatchingDims := []
  startIndicesBatchingDims := []
  startIndexMap := [0, 1]
  indexVectorDim := 1
  sliceSizes := ![1, 1]
  wf := gather_S6x1024_S1024x2_S1024_n_01_n_n_01_1_11_wf

abbrev win0_0 : Pipeline.Window sig grid0 :=
  Pipeline.Window.ofSpec (Memref.whole main_v0) S1024x2304.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S6x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S6x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x6x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1024x2096 : Shape := ⟨2, ![1024, 2096]⟩
abbrev S6x2096 : Shape := ⟨2, ![6, 2096]⟩
abbrev S6x2096x2096 : Shape := ⟨3, ![6, 2096, 2096]⟩
abbrev S1024 : Shape := ⟨1, ![1024]⟩
abbrev S1x1024x2096 : Shape := ⟨3, ![1, 1024, 2096]⟩
abbrev S6x1x2096 : Shape := ⟨3, ![6, 1, 2096]⟩
abbrev S6x1024x2096 : Shape := ⟨3, ![6, 1024, 2096]⟩
abbrev S_ : Shape := ⟨0, ![]⟩
abbrev S6x1024 : Shape := ⟨2, ![6, 1024]⟩
abbrev S1024x1 : Shape := ⟨2, ![1024, 1]⟩
abbrev S1024x2 : Shape := ⟨2, ![1024, 2]⟩

abbrev nBuf : Space → Nat
  | .hbm => 32
  | .vmem => 0
  | .smem => 0
  | _ => 0

abbrev bufTy : (tb : Table) → Fin (tcTables nBuf tb) → BufTy
  | .hbm, ⟨0, _⟩ => ⟨S1024x2096, .f32⟩
  | .hbm, ⟨1, _⟩ => ⟨S6x2096, .f32⟩
  | .hbm, ⟨2, _⟩ => ⟨S6x2096x2096, .f32⟩
  | .hbm, ⟨3, _⟩ => ⟨S1024, .i32⟩
  | .hbm, ⟨4, _⟩ => ⟨S1x1024x2096, .f32⟩
  | .hbm, ⟨5, _⟩ => ⟨S6x1x2096, .f32⟩
  | .hbm, ⟨6, _⟩ => ⟨S6x1024x2096, .f32⟩
  | .hbm, ⟨7, _⟩ => ⟨S6x1024x2096, .f32⟩
  | .hbm, ⟨8, _⟩ => ⟨S6x1024x2096, .f32⟩
  | .hbm, ⟨9, _⟩ => ⟨S6x1024x2096, .f32⟩
  | .hbm, ⟨10, _⟩ => ⟨S6x1024x2096, .f32⟩
  | .hbm, ⟨11, _⟩ => ⟨S_, .f32⟩
  | .hbm, ⟨12, _⟩ => ⟨S6x1024, .f32⟩
  | .hbm, ⟨13, _⟩ => ⟨S1024, .i32⟩
  | .hbm, ⟨14, _⟩ => ⟨S_, .i32⟩
  | .hbm, ⟨15, _⟩ => ⟨S1024, .i32⟩
  | .hbm, ⟨16, _⟩ => ⟨S1024, .i1⟩
  | .hbm, ⟨17, _⟩ => ⟨S_, .i32⟩
  | .hbm, ⟨18, _⟩ => ⟨S1024, .i32⟩
  | .hbm, ⟨19, _⟩ => ⟨S1024, .i32⟩
  | .hbm, ⟨20, _⟩ => ⟨S1024, .i32⟩
  | .hbm, ⟨21, _⟩ => ⟨S_, .i32⟩
  | .hbm, ⟨22, _⟩ => ⟨S1024, .i32⟩
  | .hbm, ⟨23, _⟩ => ⟨S1024, .i1⟩
  | .hbm, ⟨24, _⟩ => ⟨S_, .i32⟩
  | .hbm, ⟨25, _⟩ => ⟨S1024, .i32⟩
  | .hbm, ⟨26, _⟩ => ⟨S1024, .i32⟩
  | .hbm, ⟨27, _⟩ => ⟨S1024, .i32⟩
  | .hbm, ⟨28, _⟩ => ⟨S1024x1, .i32⟩
  | .hbm, ⟨29, _⟩ => ⟨S1024x1, .i32⟩
  | .hbm, ⟨30, _⟩ => ⟨S1024x2, .i32⟩
  | .hbm, ⟨31, _⟩ => ⟨S1024, .f32⟩
  | _, _ => ⟨S1024x2096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  bcast_S1024x2096_S1x1024x2096_1_2 : S1024x2096.BroadcastsInDim S1x1024x2096 (![1, 2] : Fin 2 → Fin S1x1024x2096.rank)
  bcast_S6x2096_S6x1x2096_0_2 : S6x2096.BroadcastsInDim S6x1x2096 (![0, 2] : Fin 2 → Fin S6x1x2096.rank)
  bcast_S1x1024x2096_S6x1024x2096_0_1_2 : S1x1024x2096.BroadcastsInDim S6x1024x2096 (![0, 1, 2] : Fin 3 → Fin S6x1024x2096.rank)
  bcast_S6x1x2096_S6x1024x2096_0_1_2 : S6x1x2096.BroadcastsInDim S6x1024x2096 (![0, 1, 2] : Fin 3 → Fin S6x1024x2096.rank)
  reducesTo_S6x1024x2096_S6x1024_d2 : S6x1024x2096.ReducesTo [2] S6x1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  concatenates_S1024x1_S1024x1_S1024x2_d1 : Shape.Concatenates [S1024x1, S1024x1] S1024x2 1
  dot_S6x1024x2096_S6x2096x2096_S6x1024x2096_2_1_1_2_0_0_wf : DotDims.WF S6x1024x2096 S6x2096x2096 S6x1024x2096 [2] [1] [1] [2] [0] [0]
  gather_S6x1024_S1024x2_S1024_n_01_n_n_01_1_11_wf : GatherDims.WF S6x1024 S1024x2 S1024 [] [0, 1] [] [0, 1] [] 1 ![1, 1]

variable [Facts₀]

def dot_S6x1024x2096_S6x2096x2096_S6x1024x2096_2_1_1_2_0_0 : DotDims S6x1024x2096 S6x2096x2096 S6x1024x2096 where
  lhsContracting := [2]
  rhsContracting := [1]
  lhsNonContracting := [1]
  rhsNonContracting := [2]
  lhsBatch := [0]
  rhsBatch := [0]
  wf := dot_S6x1024x2096_S6x2096x2096_S6x1024x2096_2_1_1_2_0_0_wf
def gather_S6x1024_S1024x2_S1024_n_01_n_n_01_1_11 : GatherDims S6x1024 S1024x2 S1024 where
  offsetDims := []
  collapsedSliceDims := [0, 1]
  operandBatchingDims := []
  startIndicesBatchingDims := []
  startIndexMap := [0, 1]
  indexVectorDim := 1
  sliceSizes := ![1, 1]
  wf := gather_S6x1024_S1024x2_S1024_n_01_n_n_01_1_11_wf

class Facts : Prop extends Facts₀ where

variable [Facts]
-- ==== Proof.Pieces.lean ====
/-
  What one run of the kernel body leaves behind, case by case, as the body's stored values of what it loaded.

  At grid point (nj, ki) the body loads the 256 columns of the padded batch and of the padded means that belong to
  row tile ki, and the 256 x 256 tile of the padded matrices.  At the first row tile (case A) the accumulator is
  zeroed before the tile's share is added; at the others (cases B and C) the share is added to what the point
  before left.  At the last row tile (case C) the output block is computed from the accumulator just stored and
  the columns of column tile nj.
-/
import proofs.«182003_j4939212390990_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

theorem hz3 : (![0, 0, 0] : Fin 3 → Nat) = fun _ => 0 := funext fun a => by fin_cases a <;> rfl

/-- The batch's columns of row tile ki = i 1. -/
def colsK (i : grid0.Coords) (x0 : Vec F S1024x2304 .f32) : Vec F S1024x256 .f32 :=
  View.ld x0 (Rect.unit (s := S1024x2304) (k0_off1 i) S1024x256.size (k0_off1_inb i))
/-- The means' columns of row tile ki = i 1. -/
def meansK (i : grid0.Coords) (x1 : Vec F S6x2304 .f32) : Vec F S6x256 .f32 :=
  View.ld x1 (Rect.unit (s := S6x2304) (k0_off2 i) S6x256.size (k0_off2_inb i))
/-- The batch's columns of column tile nj = i 0 (loaded at the last row tile only). -/
def colsN (i : grid0.Coords) (h : cond0_1 i) (x0 : Vec F S1024x2304 .f32) : Vec F S1024x256 .f32 :=
  View.ld x0 (Rect.unit (s := S1024x2304) (k0_off3 i) S1024x256.size (k0_off3_inb i h))
/-- The means' columns of column tile nj = i 0. -/
def meansN (i : grid0.Coords) (h : cond0_1 i) (x1 : Vec F S6x2304 .f32) : Vec F S6x256 .f32 :=
  View.ld x1 (Rect.unit (s := S6x2304) (k0_off4 i) S6x256.size (k0_off4_inb i h))

/-- Case A (first row tile): the zeroed accumulator plus the tile's share. -/
theorem sout_A (c : Dev nD) (i : grid0.Coords) (a2 : Memref sig .tc .vmem S1024x2304 .f32) (h2 : a2.IsWhole) (a3 : Memref sig .tc .vmem S6x2304 .f32) (h3 : a3.IsWhole) (a4 : Memref sig .tc .vmem S6x256x256 .bf16) (h4 : a4.IsWhole) (a5 : Memref sig .tc .vmem S1x6x1024 .f32) (h5 : a5.IsWhole) (a6 : Memref sig .tc .vmem S6x1024x256 .f32) (h6 : a6.IsWhole) (hc0 : cond0_0 i) (hc1 : ¬cond0_1 i) (x0 : Vec F S1024x2304 .f32) (x1 : Vec F S6x2304 .f32) (x2 : Vec F S6x256x256 .bf16) :
    sout0_A_0 c i a2 h2 a3 h3 a4 h4 a5 h5 a6 h6 hc0 hc1 x0 x1 x2 = k0_pay2 (colsK i x0) (meansK i x1) x2 k0_pay1 := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S6x1024x256) hz3, View.readCov_unit_zero (S := S6x1024x256) _ hz3]
  simp only [View.readAt_eq_ld, h2.read_unread, h3.read_unread, h4.read_unread, View.ld_unit_zero (S := S6x256x256) hz3]
  rfl

/-- Case B (a middle row tile): what the point before left plus the tile's share. -/
theorem sout_B (c : Dev nD) (i : grid0.Coords) (a2 : Memref sig .tc .vmem S1024x2304 .f32) (h2 : a2.IsWhole) (a3 : Memref sig .tc .vmem S6x2304 .f32) (h3 : a3.IsWhole) (a4 : Memref sig .tc .vmem S6x256x256 .bf16) (h4 : a4.IsWhole) (a5 : Memref sig .tc .vmem S1x6x1024 .f32) (h5 : a5.IsWhole) (a6 : Memref sig .tc .vmem S6x1024x256 .f32) (h6 : a6.IsWhole) (hc0 : ¬cond0_0 i) (hc1 : ¬cond0_1 i) (x0 : Vec F S1024x2304 .f32) (x1 : Vec F S6x2304 .f32) (x2 : Vec F S6x256x256 .bf16) (xs0 : Vec F S6x1024x256 .f32) :
    sout0_B_0 c i a2 h2 a3 h3 a4 h4 a5 h5 a6 h6 hc0 hc1 x0 x1 x2 xs0 = k0_pay2 (colsK i x0) (meansK i x1) x2 xs0 := by
  unfold sout0_B_0
  rw [View.read_writes_eq_canon _ _ _ (scover0_B_0 c i a2 h2 a3 h3 a4 h4 a5 h5 a6 h6 hc0 hc1 x0 x1 x2 xs0)]
  unfold kernelRun0_B
  dsimp only
  rw [View.canon_unit_zero hz3]
  simp only [View.readAt_eq_ld, h2.read_unread, h3.read_unread, h4.read_unread, h6.read_unread,
    View.ld_unit_zero (S := S6x1024x256) hz3, View.ld_unit_zero (S := S6x256x256) hz3]
  rfl

/-- Case C (the last row tile), the accumulator: as in case B. -/
theorem sout_C (c : Dev nD) (i : grid0.Coords) (a2 : Memref sig .tc .vmem S1024x2304 .f32) (h2 : a2.IsWhole) (a3 : Memref sig .tc .vmem S6x2304 .f32) (h3 : a3.IsWhole) (a4 : Memref sig .tc .vmem S6x256x256 .bf16) (h4 : a4.IsWhole) (a5 : Memref sig .tc .vmem S1x6x1024 .f32) (h5 : a5.IsWhole) (a6 : Memref sig .tc .vmem S6x1024x256 .f32) (h6 : a6.IsWhole) (hc0 : ¬cond0_0 i) (hc1 : cond0_1 i) (x0 : Vec F S1024x2304 .f32) (x1 : Vec F S6x2304 .f32) (x2 : Vec F S6x256x256 .bf16) (xs0 : Vec F S6x1024x256 .f32) :
    sout0_C_0 c i a2 h2 a3 h3 a4 h4 a5 h5 a6 h6 hc0 hc1 x0 x1 x2 xs0 = k0_pay2 (colsK i x0) (meansK i x1) x2 xs0 := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_unit_zero hz3]
  simp only [View.readAt_eq_ld, h2.read_unread, h3.read_unread, h4.read_unread, h6.read_unread,
    View.ld_unit_zero (S := S6x1024x256) hz3, View.ld_unit_zero (S := S6x256x256) hz3]
  rfl

/-- Case C, the output block: computed from the accumulator just stored and column tile nj's columns. -/
theorem out_C (c : Dev nD) (i : grid0.Coords) (a2 : Memref sig .tc .vmem S1024x2304 .f32) (h2 : a2.IsWhole) (a3 : Memref sig .tc .vmem S6x2304 .f32) (h3 : a3.IsWhole) (a4 : Memref sig .tc .vmem S6x256x256 .bf16) (h4 : a4.IsWhole) (a5 : Memref sig .tc .vmem S1x6x1024 .f32) (h5 : a5.IsWhole) (a6 : Memref sig .tc .vmem S6x1024x256 .f32) (h6 : a6.IsWhole) (hc0 : ¬cond0_0 i) (hc1 : cond0_1 i) (x0 : Vec F S1024x2304 .f32) (x1 : Vec F S6x2304 .f32) (x2 : Vec F S6x256x256 .bf16) (xs0 : Vec F S6x1024x256 .f32) :
    out0_C_3 c i a2 h2 a3 h3 a4 h4 a5 h5 a6 h6 hc0 hc1 x0 x1 x2 xs0
      = k0_pay3 (colsN i hc1 x0) (meansN i hc1 x1) (k0_pay2 (colsK i x0) (meansK i x1) x2 xs0) := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero hz3, View.readCov_unit_zero (S := S6x1024x256) _ hz3]
  simp only [View.readAt_eq_ld, h2.read_unread, h3.read_unread, h4.read_unread, h6.read_unread,
    View.ld_unit_zero (S := S6x1024x256) hz3, View.ld_unit_zero (S := S6x256x256) hz3]
  rfl

end Cert.KernelIdeal.Pieces

end
-- ==== Proof.Blocks.lean ====
/-
  The input blocks at a grid point, read at an index of the arrays the region finds.

  Point t of the 9 x 9 grid is (nj, ki) = (t / 9, t % 9).  The padded batch and the padded means are staged whole at
  every point; the padded matrices are staged one 256 x 256 tile per class at a time, tile (ki, nj): its entry
  (c, i, j) is the array's entry (c, 256 ki + i, 256 nj + j).  The body's column loads at tile k read column
  256 k + i of the staged array.
-/
import proofs.«182003_j4939212390990_2_alg».proof.Proof.Gen.KernelIdeal.Frame
import proofs.«182003_j4939212390990_2_alg».proof.Proof.Pieces
import Idealize.ShloMosaic.Lib.Pipeline.Value
import Idealize.ShloMosaic.Lib.ValueIdx

noncomputable section

namespace Cert.KernelIdeal.Blocks

open Cert.KernelIdeal Cert.KernelIdeal.Gen Cert.KernelIdeal.Pieces Idealize.ShloMosaic Idealize.ShloMosaic.TcCoe Idealize.SL.Sem
open Idealize.ShloMosaic.ValueIdx

variable (m : (ℓ : Loc nD τ sig) → Buf (Elt Ideal) ℓ)

/-- Point t is (t / 9, t % 9). -/
theorem coords_eq : ∀ t : Fin cfg0.N, (grid0.coords t 0).val = t.val / 9 ∧ (grid0.coords t 1).val = t.val % 9 :=
  (by decide +kernel : ∀ t : Fin grid0.N, (grid0.coords t 0).val = t.val / 9 ∧ (grid0.coords t 1).val = t.val % 9)
/-- The batch's block never moves. -/
theorem idx0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
/-- Nor does the means'. -/
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
/-- The matrices' tile at point t is (0, ki, nj). -/
theorem idx2 : ∀ t : Fin cfg0.N, win0_2.index t (0 : Fin 3) = 0 ∧ win0_2.index t (1 : Fin 3) = t.val % 9 ∧ win0_2.index t (2 : Fin 3) = t.val / 9 :=
  (by decide +kernel : ∀ t : Fin grid0.N, win0_2.index t (0 : Fin 3) = 0 ∧ win0_2.index t (1 : Fin 3) = t.val % 9 ∧ win0_2.index t (2 : Fin 3) = t.val / 9)
/-- The output's block at point t is (nj, 0, 0). -/
theorem idx3 : ∀ t : Fin cfg0.N, win0_3.index t (0 : Fin 3) = t.val / 9 ∧ win0_3.index t (1 : Fin 3) = 0 ∧ win0_3.index t (2 : Fin 3) = 0 :=
  (by decide +kernel : ∀ t : Fin grid0.N, win0_3.index t (0 : Fin 3) = t.val / 9 ∧ win0_3.index t (1 : Fin 3) = 0 ∧ win0_3.index t (2 : Fin 3) = 0)

/-- The staged batch is the padded batch. -/
theorem iblk0_apply (c : Dev nD) (t : Fin cfg0.N) (b : Fin 1024) (I : Fin 2304) :
    (iblk m c 0 t : Vec Ideal S1024x2304 .f32) (ix2 b I) = V m c main_v0 (ix2 b I) := by
  have hi := idx0 t
  unfold iblk
  rw [View.read_apply]
  show V m c main_v0 _ = V m c main_v0 _
  congr 1
  funext a
  apply Fin.ext
  match a with
  | ⟨0, _⟩ => show win0_0.index t 0 * 1024 + 1 * b.val = b.val; rw [hi.1]; omega
  | ⟨1, _⟩ => show win0_0.index t 1 * 2304 + 1 * I.val = I.val; rw [hi.2]; omega

/-- The staged means are the padded means. -/
theorem iblk1_apply (c : Dev nD) (t : Fin cfg0.N) (p : Fin 6) (I : Fin 2304) :
    (iblk m c 1 t : Vec Ideal S6x2304 .f32) (ix2 p I) = V m c main_v1 (ix2 p I) := by
  have hi := idx1 t
  unfold iblk
  rw [View.read_apply]
  show V m c main_v1 _ = V m c main_v1 _
  congr 1
  funext a
  apply Fin.ext
  match a with
  | ⟨0, _⟩ => show win0_1.index t 0 * 6 + 1 * p.val = p.val; rw [hi.1]; omega
  | ⟨1, _⟩ => show win0_1.index t 1 * 2304 + 1 * I.val = I.val; rw [hi.2]; omega

/-- The staged tile of the matrices at point t = (nj, ki) is tile (ki, nj) of the padded matrices. -/
theorem iblk2_apply (c : Dev nD) (t : Fin cfg0.N) (p : Fin 6) (i j : Fin 256)
    (hI : 256 * (t.val % 9) + i.val < 2304) (hJ : 256 * (t.val / 9) + j.val < 2304) :
    (iblk m c 2 t : Vec Ideal S6x256x256 .bf16) (ix3 p i j)
      = V m c main_v3 (ix3 p ⟨256 * (t.val % 9) + i.val, hI⟩ ⟨256 * (t.val / 9) + j.val, hJ⟩) := by
  have hi := idx2 t
  unfold iblk
  rw [View.read_apply]
  show V m c main_v3 _ = V m c main_v3 _
  congr 1
  funext a
  apply Fin.ext
  match a with
  | ⟨0, _⟩ => show win0_2.index t 0 * 6 + 1 * p.val = p.val; rw [hi.1]; omega
  | ⟨1, _⟩ => show win0_2.index t 1 * 256 + 1 * i.val = 256 * (t.val % 9) + i.val; rw [hi.2.1]; omega
  | ⟨2, _⟩ => show win0_2.index t 2 * 256 + 1 * j.val = 256 * (t.val / 9) + j.val; rw [hi.2.2]; omega

/-- The batch's columns of row tile i 1: column k of the load is column 256 (i 1) + k of the staged array. -/
theorem colsK_apply (i : grid0.Coords) (x0 : Vec Ideal S1024x2304 .f32) (b : Fin 1024) (k : Fin 256)
    (h : 256 * (i 1).val + k.val < 2304) :
    colsK i x0 (ix2 b k) = x0 (ix2 b ⟨256 * (i 1).val + k.val, h⟩) := by
  unfold colsK
  show x0 ((Rect.unit (s := S1024x2304) (k0_off1 i) S1024x256.size (k0_off1_inb i)).emb (ix2 b k)) = _
  congr 1
  funext a
  apply Fin.ext
  match a with
  | ⟨0, _⟩ => show k0_off1 i 0 + 1 * b.val = b.val; rw [k0_off1_eq i]; show 0 + 1 * b.val = b.val; omega
  | ⟨1, _⟩ => show k0_off1 i 1 + 1 * k.val = 256 * (i 1).val + k.val; rw [k0_off1_eq i]; show 256 * (i 1).val + 1 * k.val = _; omega

/-- The means' columns of row tile i 1. -/
theorem meansK_apply (i : grid0.Coords) (x1 : Vec Ideal S6x2304 .f32) (p : Fin 6) (k : Fin 256)
    (h : 256 * (i 1).val + k.val < 2304) :
    meansK i x1 (ix2 p k) = x1 (ix2 p ⟨256 * (i 1).val + k.val, h⟩) := by
  unfold meansK
  show x1 ((Rect.unit (s := S6x2304) (k0_off2 i) S6x256.size (k0_off2_inb i)).emb (ix2 p k)) = _
  congr 1
  funext a
  apply Fin.ext
  match a with
  | ⟨0, _⟩ => show k0_off2 i 0 + 1 * p.val = p.val; rw [k0_off2_eq i]; show 0 + 1 * p.val = p.val; omega
  | ⟨1, _⟩ => show k0_off2 i 1 + 1 * k.val = 256 * (i 1).val + k.val; rw [k0_off2_eq i]; show 256 * (i 1).val + 1 * k.val = _; omega

/-- The batch's columns of column tile i 0. -/
theorem colsN_apply (i : grid0.Coords) (hc : cond0_1 i) (x0 : Vec Ideal S1024x2304 .f32) (b : Fin 1024) (k : Fin 256)
    (h : 256 * (i 0).val + k.val < 2304) :
    colsN i hc x0 (ix2 b k) = x0 (ix2 b ⟨256 * (i 0).val + k.val, h⟩) := by
  unfold colsN
  show x0 ((Rect.unit (s := S1024x2304) (k0_off3 i) S1024x256.size (k0_off3_inb i hc)).emb (ix2 b k)) = _
  congr 1
  funext a
  apply Fin.ext
  match a with
  | ⟨0, _⟩ => show k0_off3 i 0 + 1 * b.val = b.val; rw [k0_off3_eq i]; show 0 + 1 * b.val = b.val; omega
  | ⟨1, _⟩ => show k0_off3 i 1 + 1 * k.val = 256 * (i 0).val + k.val; rw [k0_off3_eq i]; show 256 * (i 0).val + 1 * k.val = _; omega

/-- The means' columns of column tile i 0. -/
theorem meansN_apply (i : grid0.Coords) (hc : cond0_1 i) (x1 : Vec Ideal S6x2304 .f32) (p : Fin 6) (k : Fin 256)
    (h : 256 * (i 0).val + k.val < 2304) :
    meansN i hc x1 (ix2 p k) = x1 (ix2 p ⟨256 * (i 0).val + k.val, h⟩) := by
  unfold meansN
  show x1 ((Rect.unit (s := S6x2304) (k0_off4 i) S6x256.size (k0_off4_inb i hc)).emb (ix2 p k)) = _
  congr 1
  funext a
  apply Fin.ext
  match a with
  | ⟨0, _⟩ => show k0_off4 i 0 + 1 * p.val = p.val; rw [k0_off4_eq i]; show 0 + 1 * p.val = p.val; omega
  | ⟨1, _⟩ => show k0_off4 i 1 + 1 * k.val = 256 * (i 0).val + k.val; rw [k0_off4_eq i]; show 256 * (i 0).val + 1 * k.val = _; omega

end Cert.KernelIdeal.Blocks

end
-- ==== Proof.LibTyped.lean ====
/-
  Typed references to tensor buffers: contents moved to the buffer's own type and back are the contents.

  A host operation of a module-local function is stated at the types its typed references carry and moved to each
  buffer's own type along the reference's type equation; when one operation's result feeds the next, the two moves meet
  and cancel.
-/
import Idealize.ShloMosaic.Lib.StableHlo

namespace Cert.LibTyped

open Idealize.ShloMosaic

variable {sig : RefSig} {T : BufTy} {Val : EltTy → Type}

/-- Contents moved to a typed reference's buffer type and back are the contents. -/
theorem ofBuf_toBuf (x : StableHlo.TRef sig T) (v : T.Contents Val) : x.ofBuf (x.toBuf v) = v := by
  obtain ⟨r, h, _, _⟩ := x
  subst h
  rfl

/-- … and the other way round. -/
theorem toBuf_ofBuf (x : StableHlo.TRef sig T) (v : x.ref.ty.Contents Val) : x.toBuf (x.ofBuf v) = v := by
  obtain ⟨r, h, _, _⟩ := x
  subst h
  rfl

end Cert.LibTyped
-- ==== Proof.LibBlockSum.lean ====
/-
  General facts for a sum computed block by block, and for the words a blocked one-hot comparison meets.

  * `sum_range_blocks`: in any commutative additive monoid a sum over `B · K` consecutive naturals is the sum of its
    `K` consecutive blocks of `B` terms (no finiteness or cancellation: it holds on the extended reals);
    `sum_fin_blocks` is the same with the outer sum over `Fin (B · K)` and the inner sums over `Fin B`.
  * `cmpi_eq_comm`: the integer equality test does not depend on the order of its operands.
  * `ofNat_add_ofNat_mul`: the word of lane `j` plus the word of `k` times the word of `B` is the word of
    `B · k + j` — the code a lane of block `k` stands for — at 32 bits, whatever the sizes (both sides wrap alike).
-/
import Idealize.ShloMosaic.PureOps.Ideal

open scoped BigOperators
open Idealize.ShloMosaic

namespace Cert.Lib.BlockSum

/-- A sum over `B · K` consecutive naturals is the sum of its `K` consecutive blocks of `B`. -/
theorem sum_range_blocks {M : Type*} [AddCommMonoid M] (f : ℕ → M) (B : ℕ) :
    ∀ K : ℕ, ∑ r ∈ Finset.range (B * K), f r = ∑ k ∈ Finset.range K, ∑ j ∈ Finset.range B, f (B * k + j)
  | 0 => by simp
  | K + 1 => by
    rw [Nat.mul_succ, Finset.sum_range_add, Finset.sum_range_succ, sum_range_blocks f B K]

/-- The same over finite index types: `B · K` terms are `K` blocks of `B`. -/
theorem sum_fin_blocks {M : Type*} [AddCommMonoid M] (f : ℕ → M) (B K : ℕ) :
    ∑ r : Fin (B * K), f r.val = ∑ k ∈ Finset.range K, ∑ j : Fin B, f (B * k + j.val) := by
  rw [Fin.sum_univ_eq_sum_range f (B * K), sum_range_blocks f B K]
  exact Finset.sum_congr rfl fun k _ => (Fin.sum_univ_eq_sum_range (fun j => f (B * k + j)) B).symm

/-- The equality test of two words does not depend on the order of its operands. -/
theorem cmpi_eq_comm {w : ℕ} (a b : BitVec w) : IntOp.cmpi .eq a b = IntOp.cmpi .eq b a := by
  unfold IntOp.cmpi
  exact congrArg BitVec.ofBool BEq.comm

/-- The word of `B · k + j` from the lane's word `j`, the block's word `k` and the block length's word `B`. -/
theorem ofNat_add_ofNat_mul (j k B : ℕ) :
    BitVec.ofNat 32 j + BitVec.ofNat 32 k * BitVec.ofNat 32 B = BitVec.ofNat 32 (B * k + j) := by
  rw [BitVec.ofNat_add, BitVec.ofNat_mul, BitVec.add_comm, BitVec.mul_comm]

end Cert.Lib.BlockSum
-- ==== Proof.Quadratic.lean ====
/-
  The quadratic form both programs compute, and the law that joins their two arrangements of it.

  For a batch x [1024, 2096], class means mu [6, 2096] and matrices w [6, 2096, 2096] over the extended reals, with
  d(c, b, i) = x(b, i) - mu(c, i), the form is

      q(c, b) = 0 + sum_j (sum_i d(c, b, i) * w(c, i, j)) * d(c, b, j)          (i, j < 2096).

  The tiled arrangement pads all three arrays with zeros to 2304 = 9 * 256 columns (and rows of w), cuts the
  2304 x 2304 plane into 9 x 9 tiles of 256 x 256, accumulates for each column tile nj the contraction over the nine
  row tiles one after the other, multiplies by d on that column tile, sums its 256 columns, and adds the nine partial
  sums.  Sums over consecutive blocks are sums over the whole range in any commutative monoid, so no finiteness is
  needed for the regrouping; and every term that touches the padding vanishes because on the padding d = 0 - 0 = 0 and
  v * 0 = 0 * v = 0 for every extended real v.
-/
import Idealize.ShloMosaic.PureOps.Ideal
import Idealize.ShloMosaic.Lib.ValueIdx
import proofs.«182003_j4939212390990_2_alg».proof.Proof.LibBlockSum

noncomputable section

open scoped BigOperators

namespace Cert.Quadratic

open Idealize.ShloMosaic Idealize.ShloMosaic.ValueIdx

abbrev XArr : Type := (⟨2, ![1024, 2096]⟩ : Shape).Idx → EReal
abbrev MArr : Type := (⟨2, ![6, 2096]⟩ : Shape).Idx → EReal
abbrev WArr : Type := (⟨3, ![6, 2096, 2096]⟩ : Shape).Idx → EReal

variable (x : XArr) (mu : MArr) (w : WArr)

/-- The form at class c and sample b. -/
def quadAt (c : Fin 6) (b : Fin 1024) : EReal :=
  0 + ∑ j : Fin 2096, (∑ k : Fin 2096, (x (ix2 b k) - mu (ix2 c k)) * w (ix3 c k j)) * (x (ix2 b j) - mu (ix2 c j))

/-- The form as a [6, 1024] array. -/
def quad : (⟨2, ![6, 1024]⟩ : Shape).Idx → EReal :=
  fun i => quadAt x mu w ⟨(i 0).val, (i 0).isLt⟩ ⟨(i 1).val, (i 1).isLt⟩

/-- The batch padded with zeros, its column a natural number. -/
def xp (b : Fin 1024) (I : ℕ) : EReal := if h : I < 2096 then x (ix2 b ⟨I, h⟩) else 0
/-- The means padded with zeros. -/
def mp (c : Fin 6) (I : ℕ) : EReal := if h : I < 2096 then mu (ix2 c ⟨I, h⟩) else 0
/-- The matrices padded with zeros on both axes. -/
def wp (c : Fin 6) (I J : ℕ) : EReal := if h : I < 2096 ∧ J < 2096 then w (ix3 c ⟨I, h.1⟩ ⟨J, h.2⟩) else 0

theorem xp_lt (b : Fin 1024) {I : ℕ} (h : I < 2096) : xp x b I = x (ix2 b ⟨I, h⟩) := dif_pos h
theorem xp_ge (b : Fin 1024) {I : ℕ} (h : 2096 ≤ I) : xp x b I = 0 := dif_neg (by omega)
theorem mp_lt (c : Fin 6) {I : ℕ} (h : I < 2096) : mp mu c I = mu (ix2 c ⟨I, h⟩) := dif_pos h
theorem mp_ge (c : Fin 6) {I : ℕ} (h : 2096 ≤ I) : mp mu c I = 0 := dif_neg (by omega)
theorem wp_lt (c : Fin 6) {I J : ℕ} (hI : I < 2096) (hJ : J < 2096) : wp w c I J = w (ix3 c ⟨I, hI⟩ ⟨J, hJ⟩) :=
  dif_pos ⟨hI, hJ⟩
theorem wp_ge (c : Fin 6) {I J : ℕ} (h : 2096 ≤ I ∨ 2096 ≤ J) : wp w c I J = 0 := dif_neg (by omega)

/-- The padded difference d(c, b, I). -/
def diff (c : Fin 6) (b : Fin 1024) (I : ℕ) : EReal := xp x b I - mp mu c I

theorem diff_ge (c : Fin 6) (b : Fin 1024) {I : ℕ} (h : 2096 ≤ I) : diff x mu c b I = 0 := by
  unfold diff; rw [xp_ge x b h, mp_ge mu c h, sub_zero]
theorem diff_lt (c : Fin 6) (b : Fin 1024) (k : Fin 2096) : diff x mu c b k.val = x (ix2 b k) - mu (ix2 c k) := by
  unfold diff; rw [xp_lt x b k.isLt, mp_lt mu c k.isLt]

/-- Row tile k's share of the contraction into column 256 nj + j. -/
def share (c : Fin 6) (b : Fin 1024) (nj k j : ℕ) : EReal :=
  ∑ i : Fin 256, diff x mu c b (256 * k + i.val) * wp w c (256 * k + i.val) (256 * nj + j)
/-- The accumulator after row tiles 0 … ki. -/
def acc (c : Fin 6) (b : Fin 1024) (nj ki j : ℕ) : EReal := ∑ k ∈ Finset.range (ki + 1), share x mu w c b nj k j
/-- Column tile nj's partial sum. -/
def part (c : Fin 6) (b : Fin 1024) (nj : ℕ) : EReal :=
  ∑ j : Fin 256, acc x mu w c b nj 8 j.val * diff x mu c b (256 * nj + j.val)

/-- A sum whose terms vanish from n on stops at n. -/
theorem sum_range_drop {M : Type*} [AddCommMonoid M] (f : ℕ → M) {n m : ℕ} (hnm : n ≤ m) (hz : ∀ I, n ≤ I → f I = 0) :
    ∑ I ∈ Finset.range m, f I = ∑ I ∈ Finset.range n, f I :=
  (Finset.sum_subset (Finset.range_mono hnm) fun I _ hI => hz I (by simpa using hI)).symm

/-- After the ninth row tile the accumulator holds the whole padded contraction. -/
theorem acc_last (c : Fin 6) (b : Fin 1024) (nj j : ℕ) :
    acc x mu w c b nj 8 j = ∑ I ∈ Finset.range 2304, diff x mu c b I * wp w c I (256 * nj + j) := by
  have e := Cert.Lib.BlockSum.sum_fin_blocks (fun I => diff x mu c b I * wp w c I (256 * nj + j)) 256 9
  rw [Fin.sum_univ_eq_sum_range (fun I => diff x mu c b I * wp w c I (256 * nj + j)) (256 * 9)] at e
  exact e.symm

/-- One padded column's term of the outer sum. -/
def colTerm (c : Fin 6) (b : Fin 1024) (J : ℕ) : EReal :=
  (∑ I ∈ Finset.range 2304, diff x mu c b I * wp w c I J) * diff x mu c b J

theorem part_eq (c : Fin 6) (b : Fin 1024) (nj : ℕ) :
    part x mu w c b nj = ∑ j : Fin 256, colTerm x mu w c b (256 * nj + j.val) := by
  unfold part colTerm
  exact Finset.sum_congr rfl fun j _ => by rw [acc_last]

/-- THE LAW: zero plus the nine partial sums is the form. -/
theorem parts_eq_quadAt (c : Fin 6) (b : Fin 1024) :
    (0 : EReal) + ∑ nj : Fin 9, part x mu w c b nj.val = quadAt x mu w c b := by
  unfold quadAt
  refine congrArg ((0 : EReal) + ·) ?_
  calc ∑ nj : Fin 9, part x mu w c b nj.val
      = ∑ nj ∈ Finset.range 9, ∑ j : Fin 256, colTerm x mu w c b (256 * nj + j.val) := by
        rw [Fin.sum_univ_eq_sum_range (fun nj => part x mu w c b nj) 9]
        exact Finset.sum_congr rfl fun nj _ => part_eq x mu w c b nj
    _ = ∑ J ∈ Finset.range 2304, colTerm x mu w c b J := by
        rw [← Cert.Lib.BlockSum.sum_fin_blocks (colTerm x mu w c b) 256 9,
          Fin.sum_univ_eq_sum_range (colTerm x mu w c b) (256 * 9)]
    _ = ∑ J ∈ Finset.range 2096, colTerm x mu w c b J :=
        sum_range_drop _ (by norm_num) fun J hJ => by
          unfold colTerm
          rw [diff_ge x mu c b hJ, mul_zero]
    _ = ∑ j : Fin 2096, colTerm x mu w c b j.val := (Fin.sum_univ_eq_sum_range (colTerm x mu w c b) 2096).symm
    _ = _ := Finset.sum_congr rfl fun j _ => by
        unfold colTerm
        rw [diff_lt, sum_range_drop _ (by norm_num : 2096 ≤ 2304) (fun I hI => by rw [diff_ge x mu c b hI, zero_mul]),
          ← Fin.sum_univ_eq_sum_range (fun I => diff x mu c b I * wp w c I j.val) 2096]
        refine congrArg (· * _) (Finset.sum_congr rfl fun k _ => ?_)
        rw [diff_lt, wp_lt w c k.isLt j.isLt]

end Cert.Quadratic

end
-- ==== Proof.HostArrays.lean ====
/-
  The three arrays the region finds are the arguments padded with zeros.

  Before the region the host pads the batch and the means with 208 zero columns, and the matrices (their change of
  float format is the identity on the extended reals) with 208 zero rows and columns; the padding value is the
  integer zero converted, which is the extended real 0.  Read at an index: inside the argument's extent the
  argument's entry, outside it 0.
-/
import proofs.«182003_j4939212390990_2_alg».proof.Proof.Gen.KernelIdeal.Frame
import proofs.«182003_j4939212390990_2_alg».proof.Proof.LibTyped
import proofs.«182003_j4939212390990_2_alg».proof.Proof.Quadratic
import Idealize.ShloMosaic.Lib.Pipeline.Value
import Idealize.ShloMosaic.Lib.KernelVsHost
import Idealize.ShloMosaic.Lib.StableHlo.Run
import Idealize.ShloMosaic.Lib.ValueIdx
import Idealize.ShloMosaic.Lib.Tactic
import Idealize.ShloMosaic.PureOps.Ideal.Laws

noncomputable section

namespace Cert.KernelIdeal.HostArrays

open Cert.KernelIdeal Cert.KernelIdeal.Gen Idealize.ShloMosaic Idealize.ShloMosaic.TcCoe Idealize.SL.Sem
open Idealize.ShloMosaic.Tactic Idealize.ShloMosaic.StableHlo Idealize.ShloMosaic.ValueIdx

variable (m : (ℓ : Loc nD τ sig) → Buf (Elt Ideal) ℓ)

/-- The argument arrays, as the form's arrays. -/
abbrev X (c : Dev nD) : Cert.Quadratic.XArr := m ((c : Thread nD τ).loc main_arg0)
abbrev MU (c : Dev nD) : Cert.Quadratic.MArr := m ((c : Thread nD τ).loc main_arg1)
abbrev W (c : Dev nD) : Cert.Quadratic.WArr := m ((c : Thread nD τ).loc main_arg2)

/-- The padding value: the integer zero converted is 0. -/
theorem padval (φ : FTy) (i : S_.Idx) : (sitofp (F := Ideal) φ (constantI S_ 32 0#32)) i = (0 : EReal) := by
  show (((0#32 : BitVec 32).toInt : ℝ) : EReal) = 0
  simp

theorem V_v0 (c : Dev nD) : (V m c main_v0 : S1024x2304.Idx → EReal)
    = pad S1024x2304 ![0, 0] ![0, 208] ![0, 0] (m ((c : Thread nD τ).loc main_arg0)) (sitofp (F := Ideal) .f32 (constantI S_ 32 0#32)) pads_S1024x2096_S1024x2304_000_02080 h_S_ := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results
  simp only [Cert.LibTyped.ofBuf_toBuf]
  rfl

theorem V_v1 (c : Dev nD) : (V m c main_v1 : S6x2304.Idx → EReal)
    = pad S6x2304 ![0, 0] ![0, 208] ![0, 0] (m ((c : Thread nD τ).loc main_arg1)) (sitofp (F := Ideal) .f32 (constantI S_ 32 0#32)) pads_S6x2096_S6x2304_000_02080 h_S_ := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results
  simp only [Cert.LibTyped.ofBuf_toBuf]
  rfl

theorem V_v3 (c : Dev nD) : (V m c main_v3 : S6x2304x2304.Idx → EReal)
    = pad S6x2304x2304 ![0, 0, 0] ![0, 208, 208] ![0, 0, 0] (truncf (F := Ideal) .bf16 (m ((c : Thread nD τ).loc main_arg2)) bitsLt_bf16_f32) (sitofp (F := Ideal) .bf16 (constantI S_ 32 0#32)) pads_S6x2096x2096_S6x2304x2304_000_02080_02080 h_S_ := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results
  simp only [Cert.LibTyped.ofBuf_toBuf]
  rfl

/-- The staged batch at (b, N): the padded batch. -/
theorem v0_apply (c : Dev nD) (b : Fin 1024) (N : ℕ) (h : N < 2304) :
    (V m c main_v0 : S1024x2304.Idx → EReal) (ix2 b ⟨N, h⟩) = Cert.Quadratic.xp (X m c) b N := by
  rw [V_v0]
  by_cases hN : N < 2096
  · rw [Cert.Quadratic.xp_lt _ b hN]
    exact pad_apply_of_inside _ _ _ _ _ _ _ (ix2 b ⟨N, h⟩) (ix2 b ⟨N, hN⟩) fun a => match a with
      | ⟨0, _⟩ => by show b.val = 0 + b.val * (0 + 1); omega
      | ⟨1, _⟩ => by show N = 0 + N * (0 + 1); omega
  · rw [Cert.Quadratic.xp_ge _ b (by omega)]
    refine (pad_apply_of_not_inside _ _ _ _ _ _ _ (ix2 b ⟨N, h⟩) (1 : Fin 2) fun hh => hN ?_).trans (padval _ _)
    have := hh.2.2
    change (N - 0) / (0 + 1) < 2096 at this
    omega

/-- The staged means at (p, N): the padded means. -/
theorem v1_apply (c : Dev nD) (p : Fin 6) (N : ℕ) (h : N < 2304) :
    (V m c main_v1 : S6x2304.Idx → EReal) (ix2 p ⟨N, h⟩) = Cert.Quadratic.mp (MU m c) p N := by
  rw [V_v1]
  by_cases hN : N < 2096
  · rw [Cert.Quadratic.mp_lt _ p hN]
    exact pad_apply_of_inside _ _ _ _ _ _ _ (ix2 p ⟨N, h⟩) (ix2 p ⟨N, hN⟩) fun a => match a with
      | ⟨0, _⟩ => by show p.val = 0 + p.val * (0 + 1); omega
      | ⟨1, _⟩ => by show N = 0 + N * (0 + 1); omega
  · rw [Cert.Quadratic.mp_ge _ p (by omega)]
    refine (pad_apply_of_not_inside _ _ _ _ _ _ _ (ix2 p ⟨N, h⟩) (1 : Fin 2) fun hh => hN ?_).trans (padval _ _)
    have := hh.2.2
    change (N - 0) / (0 + 1) < 2096 at this
    omega

/-- The staged matrices at (p, I, J): the padded matrices. -/
theorem v3_apply (c : Dev nD) (p : Fin 6) (I J : ℕ) (hI : I < 2304) (hJ : J < 2304) :
    (V m c main_v3 : S6x2304x2304.Idx → EReal) (ix3 p ⟨I, hI⟩ ⟨J, hJ⟩) = Cert.Quadratic.wp (W m c) p I J := by
  rw [V_v3]
  by_cases hIn : I < 2096
  · by_cases hJn : J < 2096
    · rw [Cert.Quadratic.wp_lt _ p hIn hJn]
      exact pad_apply_of_inside _ _ _ _ _ _ _ (ix3 p ⟨I, hI⟩ ⟨J, hJ⟩) (ix3 p ⟨I, hIn⟩ ⟨J, hJn⟩) fun a => match a with
        | ⟨0, _⟩ => by show p.val = 0 + p.val * (0 + 1); omega
        | ⟨1, _⟩ => by show I = 0 + I * (0 + 1); omega
        | ⟨2, _⟩ => by show J = 0 + J * (0 + 1); omega
    · rw [Cert.Quadratic.wp_ge _ p (Or.inr (by omega))]
      refine (pad_apply_of_not_inside _ _ _ _ _ _ _ (ix3 p ⟨I, hI⟩ ⟨J, hJ⟩) (2 : Fin 3) fun hh => hJn ?_).trans (padval _ _)
      have := hh.2.2
      change (J - 0) / (0 + 1) < 2096 at this
      omega
  · rw [Cert.Quadratic.wp_ge _ p (Or.inl (by omega))]
    refine (pad_apply_of_not_inside _ _ _ _ _ _ _ (ix3 p ⟨I, hI⟩ ⟨J, hJ⟩) (1 : Fin 3) fun hh => hIn ?_).trans (padval _ _)
    have := hh.2.2
    change (I - 0) / (0 + 1) < 2096 at this
    omega

end Cert.KernelIdeal.HostArrays

end
-- ==== Proof.LibRank3.lean ====
/-
  Layout readings over literal rank-3 shapes at any extents: a `[a, n]` matrix given a trailing unit axis, an
  `[a, n, 1]` array spread along its last axis, a vector given two leading unit axes, a `[1, 1, m]` row spread over
  `[a, n, m]`; and, over the extended reals, the sum of an `[a, n, d]` array along its last axis.  Each says which
  entries of the operand an entry of the result reads.
-/
import Idealize.ShloMosaic.Lib.Pipeline.Value
import Idealize.ShloMosaic.Lib.ValueIdx
import Idealize.ShloMosaic.PureOps.Ideal.Laws

noncomputable section

open scoped BigOperators

namespace Cert.LibRank3

open Idealize.ShloMosaic Idealize.ShloMosaic.ValueIdx

variable {α : Type}

/-- An `[a, n]` matrix given a trailing unit axis has at `(c, p, 0)` the matrix's entry `(c, p)`. -/
theorem unit_last_apply {a n : ℕ} (v : (⟨2, ![a, n]⟩ : Shape).Idx → α)
    (h : (⟨2, ![a, n]⟩ : Shape).ShapeCasts ⟨3, ![a, n, 1]⟩) (c : Fin a) (p : Fin n) (z : Fin 1) :
    shapeCast ⟨3, ![a, n, 1]⟩ v h (ix3 c p z) = v (ix2 c p) :=
  shapeCast_apply v h (ix3 c p z) (ix2 c p) (by
    rw [Shape.rowMajor_val_three, Shape.rowMajor_val_two]
    show c.val * n + p.val = (c.val * n + p.val) * 1 + z.val
    have := z.isLt
    omega)

/-- An `[a, n, 1]` array spread over `[a, n, m]` has at `(c, p, j)` the array's entry `(c, p, 0)`. -/
theorem spread_last_apply {a n m : ℕ} (v : (⟨3, ![a, n, 1]⟩ : Shape).Idx → α)
    (h : (⟨3, ![a, n, 1]⟩ : Shape).Broadcasts ⟨3, ![a, n, m]⟩) (c : Fin a) (p : Fin n) (j : Fin m) :
    broadcastTo ⟨3, ![a, n, m]⟩ v h (ix3 c p j) = v (ix3 c p (0 : Fin 1)) := by
  refine broadcastTo_apply v h (ix3 c p j) (ix3 c p (0 : Fin 1)) fun ax => ?_
  match ax with
  | ⟨0, _⟩ =>
    show c.val = if a = 1 then 0 else c.val
    split
    · have := c.isLt; omega
    · rfl
  | ⟨1, _⟩ =>
    show p.val = if n = 1 then 0 else p.val
    split
    · have := p.isLt; omega
    · rfl
  | ⟨2, _⟩ => rfl

/-- A vector given two leading unit axes has at `(0, 0, r)` the vector's entry `r`. -/
theorem unit_lead2_apply {n : ℕ} (v : (⟨1, ![n]⟩ : Shape).Idx → α)
    (h : (⟨1, ![n]⟩ : Shape).ShapeCasts ⟨3, ![1, 1, n]⟩) (y z : Fin 1) (r : Fin n) :
    shapeCast ⟨3, ![1, 1, n]⟩ v h (ix3 y z r) = v (ix1 r) :=
  shapeCast_apply v h (ix3 y z r) (ix1 r) (by
    rw [Shape.rowMajor_val_three, Shape.rowMajor_val_one]
    show r.val = (y.val * 1 + z.val) * n + r.val
    have hy : y.val = 0 := by have := y.isLt; omega
    have hz : z.val = 0 := by have := z.isLt; omega
    rw [hy, hz]
    omega)

/-- A `[1, 1, m]` row spread over `[a, n, m]` has at `(c, p, j)` the row's entry `(0, 0, j)`. -/
theorem spread_row_apply {a n m : ℕ} (v : (⟨3, ![1, 1, m]⟩ : Shape).Idx → α)
    (h : (⟨3, ![1, 1, m]⟩ : Shape).Broadcasts ⟨3, ![a, n, m]⟩) (c : Fin a) (p : Fin n) (j : Fin m) :
    broadcastTo ⟨3, ![a, n, m]⟩ v h (ix3 c p j) = v (ix3 (0 : Fin 1) (0 : Fin 1) j) := by
  refine broadcastTo_apply v h (ix3 c p j) (ix3 (0 : Fin 1) (0 : Fin 1) j) fun ax => ?_
  match ax with
  | ⟨0, _⟩ => rfl
  | ⟨1, _⟩ => rfl
  | ⟨2, _⟩ =>
    show j.val = if m = 1 then 0 else j.val
    split
    · have := j.isLt; omega
    · rfl

/-- A vector given two leading unit axes and spread over `[a, n, m]` has at `(c, p, j)` the vector's entry `j`. -/
theorem spread_vec_apply {a n m : ℕ} (v : (⟨1, ![m]⟩ : Shape).Idx → α)
    (h1 : (⟨1, ![m]⟩ : Shape).ShapeCasts ⟨3, ![1, 1, m]⟩)
    (h2 : (⟨3, ![1, 1, m]⟩ : Shape).Broadcasts ⟨3, ![a, n, m]⟩) (c : Fin a) (p : Fin n) (j : Fin m) :
    broadcastTo ⟨3, ![a, n, m]⟩ (shapeCast ⟨3, ![1, 1, m]⟩ v h1) h2 (ix3 c p j) = v (ix1 j) := by
  rw [spread_row_apply, unit_lead2_apply]

/-- Over the extended reals, the sum of an `[a, n, d]` array along its last axis, started from the zero word, has at
    `(c, p)` the sum of the entries `(c, p, k)`. -/
theorem lane_sum_apply {a n d : ℕ} (v : FVec Ideal ⟨3, ![a, n, d]⟩ .f32)
    (h : (⟨3, ![a, n, d]⟩ : Shape).Reduces [2] ⟨2, ![a, n]⟩)
    (hφ : FKind.Formats .f32) (hacc : (0x00000000#32 : BitVec 32) = FKind.add.neutral .f32 hφ) (c : Fin a) (p : Fin n) :
    multiReduction .add [2] ⟨2, ![a, n]⟩ v 0x00000000#32 h hφ hacc (ix2 c p) = ∑ k : Fin d, v (ix3 c p k) := by
  refine (Ideal.multiReduction_add_single v 0x00000000#32 h hφ hacc (ix2 c p)).trans ?_
  show ∑ k : Fin d, v (h.lift (ix2 c p) k) = _
  refine Finset.sum_congr rfl fun k _ => congrArg v ?_
  funext ax
  match ax with
  | ⟨0, _⟩ => rfl
  | ⟨1, _⟩ => rfl
  | ⟨2, _⟩ => rfl

/-- The same sum, with the accumulator's condition stated as the equation of words `0 = 0`. -/
theorem lane_sum_apply' {a n d : ℕ} (v : FVec Ideal ⟨3, ![a, n, d]⟩ .f32)
    (h : (⟨3, ![a, n, d]⟩ : Shape).Reduces [2] ⟨2, ![a, n]⟩)
    (hφ : FKind.Formats .f32) (hacc : (0x00000000#32 : BitVec 32) = 0x00000000#32) (c : Fin a) (p : Fin n) :
    multiReduction .add [2] ⟨2, ![a, n]⟩ v 0x00000000#32 h hφ hacc (ix2 c p) = ∑ k : Fin d, v (ix3 c p k) :=
  lane_sum_apply v h hφ hacc c p

/-- The reciprocal square root of an array, read at an index, is the reciprocal square root of the entry. -/
theorem rsqrt_apply {s : Shape} {φ : FTy} (x : FVec Ideal s φ) (i : s.Idx) : rsqrt x i = Ideal.rsqrt (x i) := rfl

end Cert.LibRank3

end
-- ==== Proof.LibBatch.lean ====
/-
  Layout readings for a stack of matrices whose blocks carry a unit axis in second position, at any extents and
  any value type.

  A pipelined block of an array [a, H, n, m] taken at one index of axis 1 has shape [a, 1, n, m]; a kernel body
  drops that unit axis to compute on [a, n, m] and puts it back before storing, and spreads a [1, n, m] block over
  the `a` matrices of the stack. Read at an entry written by coordinates:

    * `shapeCast_a1bc_abc_apply`: [a, 1, n, m] viewed as [a, n, m] reads (p, i, j) at (p, 0, i, j);
    * `shapeCast_abc_a1bc_apply`: [a, n, m] viewed as [a, 1, n, m] reads (p, u, i, j) at (p, i, j);
    * `broadcastTo_1bc_abc_apply`: [1, n, m] spread over [a, n, m] reads (p, i, j) at (0, i, j).

  All three are the row-major position, resp. the broadcast's coordinate rule, worked out once (extents of one included).
-/
import Idealize.ShloMosaic.Lib.Pipeline.Value
import Idealize.ShloMosaic.Lib.ValueIdx

noncomputable section

namespace Cert.Lib.Batch

open Idealize.ShloMosaic Idealize.ShloMosaic.ValueIdx

variable {α : Type}

/-- An [a, 1, n, m] array viewed as [a, n, m] reads, at (p, i, j), the operand at (p, 0, i, j): the unit axis
    contributes nothing to the row-major position. -/
theorem shapeCast_a1bc_abc_apply {a n m : ℕ} (x : (⟨4, ![a, 1, n, m]⟩ : Shape).Idx → α)
    (h : (⟨4, ![a, 1, n, m]⟩ : Shape).ShapeCasts ⟨3, ![a, n, m]⟩) (p : Fin a) (i : Fin n) (j : Fin m) :
    shapeCast ⟨3, ![a, n, m]⟩ x h (ix3 p i j) = x (ix4 p (0 : Fin 1) i j) :=
  shapeCast_apply x h _ _ (by
    rw [Shape.rowMajor_val_four, Shape.rowMajor_val_three]
    show ((p.val * 1 + 0) * n + i.val) * m + j.val = (p.val * n + i.val) * m + j.val
    rw [Nat.mul_one, Nat.add_zero])

/-- An [a, n, m] array viewed as [a, 1, n, m] reads, at (p, u, i, j), the operand at (p, i, j). -/
theorem shapeCast_abc_a1bc_apply {a n m : ℕ} (x : (⟨3, ![a, n, m]⟩ : Shape).Idx → α)
    (h : (⟨3, ![a, n, m]⟩ : Shape).ShapeCasts ⟨4, ![a, 1, n, m]⟩) (p : Fin a) (u : Fin 1) (i : Fin n) (j : Fin m) :
    shapeCast ⟨4, ![a, 1, n, m]⟩ x h (ix4 p u i j) = x (ix3 p i j) :=
  shapeCast_apply x h _ _ (by
    have hu : u.val = 0 := by omega
    rw [Shape.rowMajor_val_four, Shape.rowMajor_val_three]
    show (p.val * n + i.val) * m + j.val = ((p.val * 1 + u.val) * n + i.val) * m + j.val
    rw [hu, Nat.mul_one, Nat.add_zero])

/-- A [1, n, m] block spread over the `a` matrices of an [a, n, m] stack reads, at (p, i, j), the block at (0, i, j). -/
theorem broadcastTo_1bc_abc_apply {a n m : ℕ} (x : (⟨3, ![1, n, m]⟩ : Shape).Idx → α)
    (h : (⟨3, ![1, n, m]⟩ : Shape).Broadcasts ⟨3, ![a, n, m]⟩) (p : Fin a) (i : Fin n) (j : Fin m) :
    broadcastTo ⟨3, ![a, n, m]⟩ x h (ix3 p i j) = x (ix3 (0 : Fin 1) i j) :=
  broadcastTo_apply x h _ _ fun c => match c with
    | ⟨0, _⟩ => by
        show (0 : ℕ) = if (1 : ℕ) = 1 then 0 else p.val
        rw [if_pos rfl]
    | ⟨1, _⟩ => by
        show i.val = if n = 1 then 0 else i.val
        split
        · have := i.isLt; omega
        · rfl
    | ⟨2, _⟩ => by
        show j.val = if m = 1 then 0 else j.val
        split
        · have := j.isLt; omega
        · rfl

end Cert.Lib.Batch

end
-- ==== Proof.Payloads.lean ====
/-
  The kernel body's two stored values read at an index, over the extended reals.

  Write d(c, b, i) = x(b, i) - mu(c, i) for a block x of 256 columns of the padded batch and the matching block mu of
  the padded class means.  The accumulator's new contents at (c, b, j) are its old contents plus
  sum_i d(c, b, i) * w(c, i, j) over the 256 rows of the block w of the padded matrices; the output block at (c, b)
  is sum_j acc(c, b, j) * d(c, b, j) over the 256 columns of the accumulator.
-/
import proofs.«182003_j4939212390990_2_alg».proof.Proof.Gen.KernelIdeal.Skeleton
import proofs.«182003_j4939212390990_2_alg».proof.Proof.LibRank3
import proofs.«182003_j4939212390990_2_alg».proof.Proof.LibBatch
import Idealize.ShloMosaic.Lib.ValueIdx
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- A [6, 256] block given a middle unit axis has at (c, 0, i) the block's entry (c, i). -/
theorem mid_unit_apply (v : FVec Ideal S6x256 .f32) (h : S6x256.ShapeCasts S6x1x256) (c : Fin 6) (z : Fin 1) (i : Fin 256) :
    shapeCast S6x1x256 v h (ix3 c z i) = v (ix2 c i) :=
  shapeCast_apply v h (ix3 c z i) (ix2 c i) (by
    rw [Shape.rowMajor_val_three, Shape.rowMajor_val_two]
    show c.val * 256 + i.val = (c.val * 1 + z.val) * 256 + i.val
    have := z.isLt
    omega)

/-- A [6, 1, 256] array spread over the 1024 rows has at (c, b, i) the array's entry (c, 0, i). -/
theorem spread_mid_apply (v : FVec Ideal S6x1x256 .f32) (h : S6x1x256.Broadcasts S6x1024x256) (c : Fin 6) (b : Fin 1024) (i : Fin 256) :
    broadcastTo S6x1024x256 v h (ix3 c b i) = v (ix3 c (0 : Fin 1) i) :=
  broadcastTo_apply v h (ix3 c b i) (ix3 c (0 : Fin 1) i) fun ax => match ax with
    | ⟨0, _⟩ => by show c.val = if (6 : ℕ) = 1 then 0 else c.val; rw [if_neg (by decide)]
    | ⟨1, _⟩ => by show (0 : ℕ) = if (1 : ℕ) = 1 then 0 else b.val; rw [if_pos rfl]
    | ⟨2, _⟩ => by show i.val = if (256 : ℕ) = 1 then 0 else i.val; rw [if_neg (by decide)]

/-- A [1024, 256] block given a leading unit axis has at (0, b, i) the block's entry (b, i). -/
theorem lead_unit_apply (v : FVec Ideal S1024x256 .f32) (h : S1024x256.ShapeCasts S1x1024x256) (z : Fin 1) (b : Fin 1024) (i : Fin 256) :
    shapeCast S1x1024x256 v h (ix3 z b i) = v (ix2 b i) :=
  shapeCast_apply v h (ix3 z b i) (ix2 b i) (by
    rw [Shape.rowMajor_val_three, Shape.rowMajor_val_two]
    show b.val * 256 + i.val = (z.val * 1024 + b.val) * 256 + i.val
    have := z.isLt
    omega)

/-- The difference d: the batch block spread over the six classes minus the means' block spread over the rows. -/
def delta (x : Vec Ideal S1024x256 .f32) (mu : Vec Ideal S6x256 .f32) : FVec Ideal S6x1024x256 .f32 :=
  subf (broadcastTo S6x1024x256 (shapeCast S1x1024x256 (shapeCast S1024x256 x shapeCasts_S1024x256_S1024x256) shapeCasts_S1024x256_S1x1024x256) broadcasts_S1x1024x256_S6x1024x256)
    (broadcastTo S6x1024x256 (shapeCast S6x1x256 (shapeCast S6x256 mu shapeCasts_S6x256_S6x256) shapeCasts_S6x256_S6x1x256) broadcasts_S6x1x256_S6x1024x256)

/-- d(c, b, i) = x(b, i) - mu(c, i). -/
theorem delta_apply (x : Vec Ideal S1024x256 .f32) (mu : Vec Ideal S6x256 .f32) (c : Fin 6) (b : Fin 1024) (i : Fin 256) :
    delta x mu (ix3 c b i) = x (ix2 b i) - mu (ix2 c i) := by
  unfold delta
  rw [subf_apply, Cert.Lib.Batch.broadcastTo_1bc_abc_apply, lead_unit_apply, shapeCast_self, spread_mid_apply, mid_unit_apply,
    shapeCast_self]

theorem lhs_0 (i : S6x1024x256.Idx) (q : (dot_S6x1024x256_S6x256x256_S6x1024x256_2_1_1_2_0_0).contr.Idx) : ((dot_S6x1024x256_S6x256x256_S6x1024x256_2_1_1_2_0_0).lhsIdx i q 0).val = (i 0).val := by
  unfold DotDims.lhsIdx
  rw [dif_pos (show (0 : Fin S6x1024x256.rank) ∈ (dot_S6x1024x256_S6x256x256_S6x1024x256_2_1_1_2_0_0).lhsBatch by decide)]
  rfl
theorem lhs_1 (i : S6x1024x256.Idx) (q : (dot_S6x1024x256_S6x256x256_S6x1024x256_2_1_1_2_0_0).contr.Idx) : ((dot_S6x1024x256_S6x256x256_S6x1024x256_2_1_1_2_0_0).lhsIdx i q 1).val = (i 1).val := by
  unfold DotDims.lhsIdx
  rw [dif_neg (show ¬(1 : Fin S6x1024x256.rank) ∈ (dot_S6x1024x256_S6x256x256_S6x1024x256_2_1_1_2_0_0).lhsBatch by decide),
    dif_pos (show (1 : Fin S6x1024x256.rank) ∈ (dot_S6x1024x256_S6x256x256_S6x1024x256_2_1_1_2_0_0).lhsNonContracting by decide)]
  rfl
theorem lhs_2 (i : S6x1024x256.Idx) (q : (dot_S6x1024x256_S6x256x256_S6x1024x256_2_1_1_2_0_0).contr.Idx) : ((dot_S6x1024x256_S6x256x256_S6x1024x256_2_1_1_2_0_0).lhsIdx i q 2).val = (q ⟨0, by decide⟩).val :=
  (dot_S6x1024x256_S6x256x256_S6x1024x256_2_1_1_2_0_0).lhsIdx_val_of_single rfl i q
theorem rhs_0 (i : S6x1024x256.Idx) (q : (dot_S6x1024x256_S6x256x256_S6x1024x256_2_1_1_2_0_0).contr.Idx) : ((dot_S6x1024x256_S6x256x256_S6x1024x256_2_1_1_2_0_0).rhsIdx i q 0).val = (i 0).val := by
  unfold DotDims.rhsIdx
  rw [dif_pos (show (0 : Fin S6x256x256.rank) ∈ (dot_S6x1024x256_S6x256x256_S6x1024x256_2_1_1_2_0_0).rhsBatch by decide)]
  rfl
theorem rhs_1 (i : S6x1024x256.Idx) (q : (dot_S6x1024x256_S6x256x256_S6x1024x256_2_1_1_2_0_0).contr.Idx) : ((dot_S6x1024x256_S6x256x256_S6x1024x256_2_1_1_2_0_0).rhsIdx i q 1).val = (q ⟨0, by decide⟩).val :=
  (dot_S6x1024x256_S6x256x256_S6x1024x256_2_1_1_2_0_0).rhsIdx_val_of_single rfl i q
theorem rhs_2 (i : S6x1024x256.Idx) (q : (dot_S6x1024x256_S6x256x256_S6x1024x256_2_1_1_2_0_0).contr.Idx) : ((dot_S6x1024x256_S6x256x256_S6x1024x256_2_1_1_2_0_0).rhsIdx i q 2).val = (i 2).val := by
  unfold DotDims.rhsIdx
  rw [dif_neg (show ¬(2 : Fin S6x256x256.rank) ∈ (dot_S6x1024x256_S6x256x256_S6x1024x256_2_1_1_2_0_0).rhsBatch by decide),
    dif_pos (show (2 : Fin S6x256x256.rank) ∈ (dot_S6x1024x256_S6x256x256_S6x1024x256_2_1_1_2_0_0).rhsNonContracting by decide)]
  rfl

/-- The batched product into the zero accumulator at (c, b, j): the sum over the 256 contracted rows. -/
theorem product_apply (l : FVec Ideal S6x1024x256 .bf16) (r : FVec Ideal S6x256x256 .bf16) (c : Fin 6) (b : Fin 1024) (j : Fin 256) :
    matmul dot_S6x1024x256_S6x256x256_S6x1024x256_2_1_1_2_0_0 none l r (constant S6x1024x256 .f32 0x00000000#32) (ix3 c b j)
      = ∑ i : Fin 256, l (ix3 c b i) * r (ix3 c i j) := by
  refine (Ideal.matmul_constant_zero_apply _ none _ _ _).trans ?_
  rw [← Equiv.sum_comp (ValueIdx.contrEquiv1 dot_S6x1024x256_S6x256x256_S6x1024x256_2_1_1_2_0_0 256 rfl rfl).symm]
  refine Finset.sum_congr rfl fun k _ => ?_
  have hk := ValueIdx.contrEquiv1_symm_val dot_S6x1024x256_S6x256x256_S6x1024x256_2_1_1_2_0_0 256 rfl rfl k
  have el : (dot_S6x1024x256_S6x256x256_S6x1024x256_2_1_1_2_0_0).lhsIdx (ix3 c b j) ((ValueIdx.contrEquiv1 dot_S6x1024x256_S6x256x256_S6x1024x256_2_1_1_2_0_0 256 rfl rfl).symm k) = ix3 c b k :=
    funext fun a => Fin.ext (by
      match a with
      | ⟨0, _⟩ => exact lhs_0 _ _
      | ⟨1, _⟩ => exact lhs_1 _ _
      | ⟨2, _⟩ => exact (lhs_2 _ _).trans hk)
  have er : (dot_S6x1024x256_S6x256x256_S6x1024x256_2_1_1_2_0_0).rhsIdx (ix3 c b j) ((ValueIdx.contrEquiv1 dot_S6x1024x256_S6x256x256_S6x1024x256_2_1_1_2_0_0 256 rfl rfl).symm k) = ix3 c k j :=
    funext fun a => Fin.ext (by
      match a with
      | ⟨0, _⟩ => exact rhs_0 _ _
      | ⟨1, _⟩ => exact (rhs_1 _ _).trans hk
      | ⟨2, _⟩ => exact rhs_2 _ _)
  rw [el, er]

/-- The accumulator's new contents at (c, b, j): the old contents plus the block's share of the contraction. -/
theorem pay2_apply (x : Vec Ideal S1024x256 .f32) (mu : Vec Ideal S6x256 .f32) (w : Vec Ideal S6x256x256 .bf16)
    (acc : Vec Ideal S6x1024x256 .f32) (c : Fin 6) (b : Fin 1024) (j : Fin 256) :
    k0_pay2 (F := Ideal) x mu w acc (ix3 c b j)
      = acc (ix3 c b j) + ∑ i : Fin 256, (x (ix2 b i) - mu (ix2 c i)) * w (ix3 c i j) := by
  unfold k0_pay2
  refine (congrFun (shapeCast_self _ _) _).trans ?_
  refine congrArg (acc (ix3 c b j) + ·) ?_
  refine (product_apply _ _ c b j).trans ?_
  refine Finset.sum_congr rfl fun i _ => ?_
  refine congrArg₂ (· * ·) ?_ ?_
  · exact delta_apply x mu c b i
  · exact congrFun (shapeCast_self _ _) _

/-- The output block at (0, c, b): the accumulator's row against the difference's row. -/
theorem pay3_apply (x : Vec Ideal S1024x256 .f32) (mu : Vec Ideal S6x256 .f32) (acc : Vec Ideal S6x1024x256 .f32)
    (z : Fin 1) (c : Fin 6) (b : Fin 1024) :
    k0_pay3 (F := Ideal) x mu acc (ix3 z c b)
      = ∑ j : Fin 256, acc (ix3 c b j) * (x (ix2 b j) - mu (ix2 c j)) := by
  unfold k0_pay3
  refine (shapeCast_apply _ _ (ix3 z c b) (ix2 c b) (by
    rw [Shape.rowMajor_val_three, Shape.rowMajor_val_two]
    show c.val * 1024 + b.val = (z.val * 6 + c.val) * 1024 + b.val
    have := z.isLt
    omega)).trans ?_
  refine (Cert.LibRank3.lane_sum_apply _ _ _ _ c b).trans ?_
  refine Finset.sum_congr rfl fun j _ => ?_
  exact congrArg (acc (ix3 c b j) * ·) (delta_apply x mu c b j)

end Cert.KernelIdeal.Payload

end
-- ==== Proof.Steps.lean ====
/-
  One grid point's step of the accumulator, read at an index.

  With (nj, ki) = (t / 9, t % 9), the loads at point t give the padded difference d on row tile ki (and, at the last
  row tile, on column tile nj), and the staged tile of the matrices is tile (ki, nj) of the padded matrices; so the
  accumulator's new entry (c, b, j) is its old entry plus row tile ki's share of the contraction into column
  256 nj + j.
-/
import proofs.«182003_j4939212390990_2_alg».proof.Proof.Gen.KernelIdeal.Frame
import proofs.«182003_j4939212390990_2_alg».proof.Proof.Pieces
import proofs.«182003_j4939212390990_2_alg».proof.Proof.Blocks
import proofs.«182003_j4939212390990_2_alg».proof.Proof.Payloads
import proofs.«182003_j4939212390990_2_alg».proof.Proof.HostArrays
import proofs.«182003_j4939212390990_2_alg».proof.Proof.Quadratic
import Idealize.ShloMosaic.Lib.Pipeline.Value
import Idealize.ShloMosaic.Lib.ValueIdx
import Idealize.ShloMosaic.PureOps.Ideal.Laws

noncomputable section

open scoped BigOperators

namespace Cert.KernelIdeal.Steps

open Cert.KernelIdeal Cert.KernelIdeal.Gen Cert.KernelIdeal.Pieces Cert.KernelIdeal.Blocks Cert.KernelIdeal.Payload
open Cert.KernelIdeal.HostArrays Cert.Quadratic
open Idealize.ShloMosaic Idealize.ShloMosaic.TcCoe Idealize.SL.Sem Idealize.ShloMosaic.ValueIdx

variable (m : (ℓ : Loc nD τ sig) → Buf (Elt Ideal) ℓ)

/-- The zero block the first row tile stores. -/
theorem pay1_apply (i : S6x1024x256.Idx) : k0_pay1 (F := Ideal) i = (0 : EReal) := by
  unfold k0_pay1
  refine (congrFun (shapeCast_self _ _) _).trans ?_
  exact Ideal.ofBits_zero_f32

/-- The padded difference on row tile ki of point t, from the loads. -/
theorem diffK (c : Dev nD) (t : Fin cfg0.N) (p : Fin 6) (b : Fin 1024) (i : Fin 256) :
    colsK (grid0.coords t) (iblk m c 0 t) (ix2 b i) - meansK (grid0.coords t) (iblk m c 1 t) (ix2 p i)
      = diff (X m c) (MU m c) p b (256 * (t.val % 9) + i.val) := by
  have hc := (coords_eq t).2
  have hlt : 256 * (grid0.coords t 1).val + i.val < 2304 := by have := i.isLt; omega
  unfold diff
  refine congrArg₂ (· - ·) ?_ ?_
  · refine (colsK_apply (grid0.coords t) (iblk m c 0 t) b i hlt).trans ?_
    refine (iblk0_apply m c t b ⟨_, hlt⟩).trans ?_
    refine (v0_apply m c b _ hlt).trans ?_
    rw [hc]
  · refine (meansK_apply (grid0.coords t) (iblk m c 1 t) p i hlt).trans ?_
    refine (iblk1_apply m c t p ⟨_, hlt⟩).trans ?_
    refine (v1_apply m c p _ hlt).trans ?_
    rw [hc]

/-- The padded difference on column tile nj of a point t that writes back, from the loads. -/
theorem diffN (c : Dev nD) (t : Fin cfg0.N) (hc1 : cond0_1 (grid0.coords t)) (p : Fin 6) (b : Fin 1024) (j : Fin 256) :
    colsN (grid0.coords t) hc1 (iblk m c 0 t) (ix2 b j) - meansN (grid0.coords t) hc1 (iblk m c 1 t) (ix2 p j)
      = diff (X m c) (MU m c) p b (256 * (t.val / 9) + j.val) := by
  have hc := (coords_eq t).1
  have hN : t.val < 81 := lt_of_lt_of_eq t.isLt (show cfg0.N = 81 from N_0)
  have hlt : 256 * (grid0.coords t 0).val + j.val < 2304 := by have := j.isLt; omega
  unfold diff
  refine congrArg₂ (· - ·) ?_ ?_
  · refine (colsN_apply (grid0.coords t) hc1 (iblk m c 0 t) b j hlt).trans ?_
    refine (iblk0_apply m c t b ⟨_, hlt⟩).trans ?_
    refine (v0_apply m c b _ hlt).trans ?_
    rw [hc]
  · refine (meansN_apply (grid0.coords t) hc1 (iblk m c 1 t) p j hlt).trans ?_
    refine (iblk1_apply m c t p ⟨_, hlt⟩).trans ?_
    refine (v1_apply m c p _ hlt).trans ?_
    rw [hc]

/-- ONE POINT'S STEP: the accumulator after point t is what it held before plus row tile ki's share. -/
theorem step (c : Dev nD) (t : Fin cfg0.N) (prev : Vec Ideal S6x1024x256 .f32) (p : Fin 6) (b : Fin 1024) (j : Fin 256) :
    k0_pay2 (F := Ideal) (colsK (grid0.coords t) (iblk m c 0 t)) (meansK (grid0.coords t) (iblk m c 1 t)) (iblk m c 2 t) prev (ix3 p b j)
      = prev (ix3 p b j) + share (X m c) (MU m c) (W m c) p b (t.val / 9) (t.val % 9) j.val := by
  have hN : t.val < 81 := lt_of_lt_of_eq t.isLt (show cfg0.N = 81 from N_0)
  refine (pay2_apply _ _ _ prev p b j).trans ?_
  refine congrArg (prev (ix3 p b j) + ·) ?_
  unfold share
  refine Finset.sum_congr rfl fun i _ => ?_
  refine congrArg₂ (· * ·) (diffK m c t p b i) ?_
  have hI : 256 * (t.val % 9) + i.val < 2304 := by have := i.isLt; omega
  have hJ : 256 * (t.val / 9) + j.val < 2304 := by have := j.isLt; omega
  refine (iblk2_apply m c t p i j hI hJ).trans ?_
  exact v3_apply m c p _ _ hI hJ

/-- A later row tile: the point before's accumulator (same column tile, row tile ki - 1) plus tile ki's share. -/
theorem scratch_step (c : Dev nD) (t : Fin cfg0.N) (h0 : ¬t.val % 9 = 0) (prev : Vec Ideal S6x1024x256 .f32)
    (hprev : ∀ (p : Fin 6) (b : Fin 1024) (j : Fin 256),
      prev (ix3 p b j) = acc (X m c) (MU m c) (W m c) p b ((t.val - 1) / 9) ((t.val - 1) % 9) j.val)
    (p : Fin 6) (b : Fin 1024) (j : Fin 256) :
    k0_pay2 (F := Ideal) (colsK (grid0.coords t) (iblk m c 0 t)) (meansK (grid0.coords t) (iblk m c 1 t)) (iblk m c 2 t) prev (ix3 p b j)
      = acc (X m c) (MU m c) (W m c) p b (t.val / 9) (t.val % 9) j.val := by
  refine (step m c t prev p b j).trans ?_
  rw [hprev]
  have e1 : (t.val - 1) / 9 = t.val / 9 := by omega
  have e2 : t.val % 9 = (t.val - 1) % 9 + 1 := by omega
  rw [e1, e2]
  unfold acc
  exact (Finset.sum_range_succ _ _).symm

end Cert.KernelIdeal.Steps

end
-- ==== Proof.Accum.lean ====
/-
  What the accumulator holds after every grid point, and the output block at the points that write it back.

  With (nj, ki) = (t / 9, t % 9): after point t the accumulator's entry (c, b, j) is the sum over the row tiles
  k = 0 … ki of tile k's share of the contraction into column 256 nj + j — by induction on the point: at ki = 0 the
  body zeroes the accumulator and adds tile 0's share, at the others it adds tile ki's share to what the point before
  left (the point before has the same nj and row tile ki - 1).  At ki = 8 the body then writes the output block whose
  entry (c, b) is the sum over the 256 columns of the accumulator times d on column tile nj: column tile nj's
  partial sum of the form.
-/
import proofs.«182003_j4939212390990_2_alg».proof.Proof.Gen.KernelIdeal.Frame
import proofs.«182003_j4939212390990_2_alg».proof.Proof.Pieces
import proofs.«182003_j4939212390990_2_alg».proof.Proof.Blocks
import proofs.«182003_j4939212390990_2_alg».proof.Proof.Payloads
import proofs.«182003_j4939212390990_2_alg».proof.Proof.HostArrays
import proofs.«182003_j4939212390990_2_alg».proof.Proof.Steps
import proofs.«182003_j4939212390990_2_alg».proof.Proof.Quadratic
import Idealize.ShloMosaic.Lib.Pipeline.Value
import Idealize.ShloMosaic.Lib.ValueIdx
import Idealize.ShloMosaic.PureOps.Ideal.Laws

noncomputable section

open scoped BigOperators

namespace Cert.KernelIdeal.Accum

open Cert.KernelIdeal Cert.KernelIdeal.Gen Cert.KernelIdeal.Pieces Cert.KernelIdeal.Blocks Cert.KernelIdeal.Payload
open Cert.KernelIdeal.HostArrays Cert.KernelIdeal.Steps Cert.Quadratic
open Idealize.ShloMosaic Idealize.ShloMosaic.TcCoe Idealize.SL.Sem Idealize.ShloMosaic.ValueIdx

variable (m : (ℓ : Loc nD τ sig) → Buf (Elt Ideal) ℓ)

/-- Case A at point t: the zeroed accumulator plus tile 0's share. -/
theorem core_A (c : Dev nD) (t : Fin cfg0.N) (hc0 : cond0_0 (grid0.coords t)) (hc1 : ¬cond0_1 (grid0.coords t))
    (h0 : t.val % 9 = 0) (p : Fin 6) (b : Fin 1024) (j : Fin 256) :
    sout0_A_0 (F := Ideal) c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t) (ix3 p b j)
      = acc (X m c) (MU m c) (W m c) p b (t.val / 9) (t.val % 9) j.val := by
  refine (congrFun (sout_A (F := Ideal) c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t)) (ix3 p b j)).trans ?_
  refine (step m c t (k0_pay1 (F := Ideal)) p b j).trans ?_
  rw [pay1_apply, h0]
  unfold acc
  rw [Finset.sum_range_succ, Finset.range_zero, Finset.sum_empty]

/-- Case B at point t over what the point before left. -/
theorem core_B (c : Dev nD) (t : Fin cfg0.N) (hc0 : ¬cond0_0 (grid0.coords t)) (hc1 : ¬cond0_1 (grid0.coords t))
    (h0 : ¬t.val % 9 = 0) (prev : Vec Ideal S6x1024x256 .f32)
    (hprev : ∀ (p : Fin 6) (b : Fin 1024) (j : Fin 256),
      prev (ix3 p b j) = acc (X m c) (MU m c) (W m c) p b ((t.val - 1) / 9) ((t.val - 1) % 9) j.val)
    (p : Fin 6) (b : Fin 1024) (j : Fin 256) :
    sout0_B_0 (F := Ideal) c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t) prev (ix3 p b j)
      = acc (X m c) (MU m c) (W m c) p b (t.val / 9) (t.val % 9) j.val := by
  refine (congrFun (sout_B (F := Ideal) c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t) prev) (ix3 p b j)).trans ?_
  exact scratch_step m c t h0 prev hprev p b j

/-- Case C at point t, the accumulator. -/
theorem core_C (c : Dev nD) (t : Fin cfg0.N) (hc0 : ¬cond0_0 (grid0.coords t)) (hc1 : cond0_1 (grid0.coords t))
    (h0 : ¬t.val % 9 = 0) (prev : Vec Ideal S6x1024x256 .f32)
    (hprev : ∀ (p : Fin 6) (b : Fin 1024) (j : Fin 256),
      prev (ix3 p b j) = acc (X m c) (MU m c) (W m c) p b ((t.val - 1) / 9) ((t.val - 1) % 9) j.val)
    (p : Fin 6) (b : Fin 1024) (j : Fin 256) :
    sout0_C_0 (F := Ideal) c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t) prev (ix3 p b j)
      = acc (X m c) (MU m c) (W m c) p b (t.val / 9) (t.val % 9) j.val := by
  refine (congrFun (sout_C (F := Ideal) c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t) prev) (ix3 p b j)).trans ?_
  exact scratch_step m c t h0 prev hprev p b j

/-- Case C at point t, the output block: column tile nj's partial sum. -/
theorem core_out (c : Dev nD) (t : Fin cfg0.N) (hc0 : ¬cond0_0 (grid0.coords t)) (hc1 : cond0_1 (grid0.coords t))
    (h0 : ¬t.val % 9 = 0) (h1 : t.val % 9 = 8) (prev : Vec Ideal S6x1024x256 .f32)
    (hprev : ∀ (p : Fin 6) (b : Fin 1024) (j : Fin 256),
      prev (ix3 p b j) = acc (X m c) (MU m c) (W m c) p b ((t.val - 1) / 9) ((t.val - 1) % 9) j.val)
    (z : Fin 1) (p : Fin 6) (b : Fin 1024) :
    out0_C_3 (F := Ideal) c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t) prev (ix3 z p b)
      = part (X m c) (MU m c) (W m c) p b (t.val / 9) := by
  refine (congrFun (out_C (F := Ideal) c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t) prev) (ix3 z p b)).trans ?_
  refine (pay3_apply _ _ _ z p b).trans ?_
  unfold part
  refine Finset.sum_congr rfl fun j _ => ?_
  refine congrArg₂ (· * ·) ?_ (diffN m c t hc1 p b j)
  refine (scratch_step m c t h0 prev hprev p b j).trans ?_
  rw [h1]

/-- A point of the first row tile. -/
theorem scratch_A (c : Dev nD) (t : Fin cfg0.N) (h0 : t.val % 9 = 0) (h1 : ¬t.val % 9 = 8) (p : Fin 6) (b : Fin 1024) (j : Fin 256) :
    (outsAt0 m c t.val t.isLt).2 (ix3 p b j) = acc (X m c) (MU m c) (W m c) p b (t.val / 9) (t.val % 9) j.val := by
  rw [outsAt0_A m c t h0 h1]
  dsimp only
  exact core_A m c t _ _ h0 p b j

/-- THE INVARIANT: the accumulator after point n. -/
theorem scratch_eq (c : Dev nD) : ∀ (n : ℕ) (h : n < cfg0.N) (p : Fin 6) (b : Fin 1024) (j : Fin 256),
    (outsAt0 m c n h).2 (ix3 p b j) = acc (X m c) (MU m c) (W m c) p b (n / 9) (n % 9) j.val := by
  intro n
  induction n with
  | zero =>
    intro h p b j
    exact scratch_A m c ⟨0, h⟩ rfl (show ¬0 % 9 = 8 by decide) p b j
  | succ n ih =>
    intro h p b j
    by_cases h0 : (n + 1) % 9 = 0
    · exact scratch_A m c ⟨n + 1, h⟩ h0 (show ¬(n + 1) % 9 = 8 by omega) p b j
    · by_cases h1 : (n + 1) % 9 = 8
      · rw [outsAt0_C m c ⟨n + 1, h⟩ h0 h1]
        dsimp only
        exact core_C m c ⟨n + 1, h⟩ _ _ h0 _ (fun p b j => ih (Nat.lt_of_succ_lt h) p b j) p b j
      · rw [outsAt0_B m c ⟨n + 1, h⟩ h0 h1]
        dsimp only
        exact core_B m c ⟨n + 1, h⟩ _ _ h0 _ (fun p b j => ih (Nat.lt_of_succ_lt h) p b j) p b j

/-- THE OUTPUT BLOCK at a point of the last row tile: column tile nj's partial sum. -/
theorem out_eq (c : Dev nD) (t : Fin cfg0.N) (h1 : t.val % 9 = 8) (z : Fin 1) (p : Fin 6) (b : Fin 1024) :
    (outsAt0 m c t.val t.isLt).1 (ix3 z p b) = part (X m c) (MU m c) (W m c) p b (t.val / 9) := by
  have h0 : ¬t.val % 9 = 0 := by omega
  rw [outsAt0_C m c t h0 h1]
  dsimp only
  exact core_out m c t _ _ h0 h1 _ (fun p b j => scratch_eq m c (t.val - 1) _ p b j) z p b

end Cert.KernelIdeal.Accum

end
-- ==== Proof.Final.lean ====
/-
  The kernel's result: the array the region leaves, and the host lines after it.

  The output block of column tile nj is written back once, at point (nj, 8); the nine blocks tile the [9, 6, 1024]
  array, so its entry (nj, c, b) ends as column tile nj's partial sum.  The host then adds the nine partial sums from
  the zero constant — the form q(c, b), by the law of the tiled arrangement — and selects one entry per sample with
  index columns computed from the label argument alone.
-/
import proofs.«182003_j4939212390990_2_alg».proof.Proof.Gen.KernelIdeal.Frame
import proofs.«182003_j4939212390990_2_alg».proof.Proof.Blocks
import proofs.«182003_j4939212390990_2_alg».proof.Proof.HostArrays
import proofs.«182003_j4939212390990_2_alg».proof.Proof.Accum
import proofs.«182003_j4939212390990_2_alg».proof.Proof.Quadratic
import Idealize.ShloMosaic.Lib.Pipeline.Value
import Idealize.ShloMosaic.Lib.StableHlo.Run
import Idealize.ShloMosaic.Lib.ValueIdx
import Idealize.ShloMosaic.Lib.Tactic
import Idealize.ShloMosaic.PureOps.Ideal.Laws

noncomputable section

open scoped BigOperators

namespace Cert.KernelIdeal.Final

open Cert.KernelIdeal Cert.KernelIdeal.Gen Cert.KernelIdeal.Blocks Cert.KernelIdeal.HostArrays Cert.KernelIdeal.Accum Cert.Quadratic
open Idealize.ShloMosaic Idealize.ShloMosaic.TcCoe Idealize.SL.Sem Idealize.ShloMosaic.ValueIdx
open Idealize.ShloMosaic.Tactic Idealize.ShloMosaic.StableHlo
open Idealize.ShloMosaic.Pipeline (Dat)

variable (m : (ℓ : Loc nD τ sig) → Buf (Elt Ideal) ℓ) (ρ : Dev nD → PrngReg)

/-- The array of partial sums: entry (nj, c, b) is column tile nj's partial sum at class c and sample b. -/
def outArr (c : Dev nD) : Buf (Elt Ideal) ((c : Thread nD τ).loc main_v4) :=
  fun y => part (X m c) (MU m c) (W m c) ⟨(y 1).val, (y 1).isLt⟩ ⟨(y 2).val, (y 2).isLt⟩ (y 0).val

theorem part_congr (x : XArr) (mu : MArr) (w : WArr) {p p' : Fin 6} {b b' : Fin 1024} {n n' : ℕ}
    (hp : p.val = p'.val) (hb : b.val = b'.val) (hn : n = n') : part x mu w p b n = part x mu w p' b' n' := by
  obtain rfl := Fin.ext hp
  obtain rfl := Fin.ext hb
  subst hn
  rfl

/-- The output window's blocks have the block's own extents at every point. -/
theorem xs3 : ∀ t : Fin cfg0.N, win0_3.xsize (grid0.coords t) (0 : Fin 3) = 1 ∧ win0_3.xsize (grid0.coords t) (1 : Fin 3) = 6
    ∧ win0_3.xsize (grid0.coords t) (2 : Fin 3) = 1024 :=
  (by decide +kernel : ∀ t : Fin grid0.N, win0_3.xsize (grid0.coords t) (0 : Fin 3) = 1 ∧ win0_3.xsize (grid0.coords t) (1 : Fin 3) = 6
    ∧ win0_3.xsize (grid0.coords t) (2 : Fin 3) = 1024)

/-- What a write-back writes is the array of partial sums read through the point's block. -/
theorem flushed_eq (c : Dev nD) (t : Fin cfg0.N) (hf : (cfg0.win 3).flush t = true) :
    (dats m 0 c).flushed 3 t = ((cfg0.win 3).blk t).view.read (Elt Ideal) (outArr m c) := by
  have h8 : t.val % 9 = 8 := (flush0_3 t).mp hf
  have hi := idx3 t
  show (cfg0.win 3).cut (grid0.coords t) ((dats m 0 c).after 3 t) = _
  rw [after0_3]
  show ((outsAt0 m c t.val t.isLt).1 : Vec Ideal S1x6x1024 .f32) = _
  funext y
  obtain ⟨z, p, b, rfl⟩ : ∃ (z : Fin 1) (p : Fin 6) (b : Fin 1024), y = ix3 z p b := ⟨y 0, y 1, y 2, eq_ix3 y⟩
  rw [View.read_apply]
  refine (out_eq m c t h8 z p b).trans ?_
  unfold outArr
  refine part_congr _ _ _ ?_ ?_ ?_
  · show p.val = win0_3.index t 1 * 6 + 1 * p.val
    rw [hi.2.1]; omega
  · show b.val = win0_3.index t 2 * 1024 + 1 * b.val
    rw [hi.2.2]; omega
  · show t.val / 9 = win0_3.index t 0 * 1 + 1 * z.val
    rw [hi.1]; have := z.isLt; omega

/-- The nine written-back blocks cover the array. -/
theorem cover (c : Dev nD) (i : ((cfg0.win 3).arr.view.loc (c.tc : Thread nD τ)).2.ty.Idx) :
    ∃ t : Fin cfg0.N, (cfg0.win 3).flush t = true ∧ i ∈ ((cfg0.win 3).blk t).view.set := by
  have h9 : (i 0 : ℕ) < 9 := (i 0).isLt
  have h6 : (i 1 : ℕ) < 6 := (i 1).isLt
  have h1024 : (i 2 : ℕ) < 1024 := (i 2).isLt
  have hN : cfg0.N = 81 := N_0
  have hlt : 9 * (i 0 : ℕ) + 8 < cfg0.N := by rw [hN]; omega
  refine ⟨⟨9 * (i 0 : ℕ) + 8, hlt⟩, (flush0_3 _).mpr (show (9 * (i 0 : ℕ) + 8) % 9 = 8 by omega), ?_⟩
  have hi := idx3 ⟨9 * (i 0 : ℕ) + 8, hlt⟩
  have hx := xs3 ⟨9 * (i 0 : ℕ) + 8, hlt⟩
  have hd : (9 * (i 0 : ℕ) + 8) / 9 = (i 0 : ℕ) := by omega
  show i ∈ ((View.whole main_v4).slice (win0_3.rect ⟨9 * (i 0 : ℕ) + 8, hlt⟩)).set
  rw [View.set_slice_whole, Rect.mem_set_unit]
  intro a
  match a with
  | ⟨0, _⟩ =>
    show win0_3.index ⟨9 * (i 0 : ℕ) + 8, hlt⟩ 0 * win0_3.size 0 ≤ (i 0 : ℕ)
      ∧ (i 0 : ℕ) < win0_3.index ⟨9 * (i 0 : ℕ) + 8, hlt⟩ 0 * win0_3.size 0 + win0_3.xsize (grid0.coords ⟨9 * (i 0 : ℕ) + 8, hlt⟩) 0
    rw [hi.1, hx.1]
    show (9 * (i 0 : ℕ) + 8) / 9 * 1 ≤ (i 0 : ℕ) ∧ (i 0 : ℕ) < (9 * (i 0 : ℕ) + 8) / 9 * 1 + 1
    omega
  | ⟨1, _⟩ =>
    show win0_3.index ⟨9 * (i 0 : ℕ) + 8, hlt⟩ 1 * win0_3.size 1 ≤ (i 1 : ℕ)
      ∧ (i 1 : ℕ) < win0_3.index ⟨9 * (i 0 : ℕ) + 8, hlt⟩ 1 * win0_3.size 1 + win0_3.xsize (grid0.coords ⟨9 * (i 0 : ℕ) + 8, hlt⟩) 1
    rw [hi.2.1, hx.2.1]
    omega
  | ⟨2, _⟩ =>
    show win0_3.index ⟨9 * (i 0 : ℕ) + 8, hlt⟩ 2 * win0_3.size 2 ≤ (i 2 : ℕ)
      ∧ (i 2 : ℕ) < win0_3.index ⟨9 * (i 0 : ℕ) + 8, hlt⟩ 2 * win0_3.size 2 + win0_3.xsize (grid0.coords ⟨9 * (i 0 : ℕ) + 8, hlt⟩) 2
    rw [hi.2.2, hx.2.2]
    omega

/-- So the region leaves the array of partial sums. -/
theorem final (c : Dev nD) : (dats m 0 c).arrAt 3 cfg0.N = outArr m c :=
  (dats m 0 c).arrAt_eq_of_cover 3 (outArr m c) (flushed_eq m c) (cover c)

/-- The host lines after the region: the selection of one entry per sample from a [6, 1024] array, with index
    columns computed from the labels. -/
def select1 (q : (⟨S6x1024, .f32⟩ : BufTy).Contents (Elt Ideal)) (lab : (⟨S1024, .i32⟩ : BufTy).Contents (Elt Ideal)) :
    (⟨S1024, .f32⟩ : BufTy).Contents (Elt Ideal) :=
  Host.gather gather_S6x1024_S1024x2_S1024_n_01_n_n_01_1_11 q
    (concatenate S1024x2 1
      [⟨S1024x1, broadcastInDim S1024x1 ![0] bcast_S1024_S1024x1_0
          (select (cmpi .slt lab (broadcastInDim S1024 ![] bcast_S_S1024 (constantI S_ 32 0#32)))
            (addi lab (broadcastInDim S1024 ![] bcast_S_S1024 (constantI S_ 32 6#32))) lab)⟩,
        ⟨S1024x1, broadcastInDim S1024x1 ![0] bcast_S1024_S1024x1_0
          (select (cmpi .slt (iotaInDim S1024 32 0) (broadcastInDim S1024 ![] bcast_S_S1024 (constantI S_ 32 0#32)))
            (addi (iotaInDim S1024 32 0) (broadcastInDim S1024 ![] bcast_S_S1024 (constantI S_ 32 1024#32)))
            (iotaInDim S1024 32 0))⟩]
      concatenates_S1024x1_S1024x1_S1024x2_d1)

/-- The nine partial sums added from the zero constant are the form. -/
theorem sum_parts (c : Dev nD) :
    Host.reduceAdd (F := Ideal) (outArr m c) (constant S_ .f32 0x00000000#32) reducesTo_S9x6x1024_S6x1024_d0 h_S_
      = quad (X m c) (MU m c) (W m c) := by
  funext i
  obtain ⟨p, b, rfl⟩ : ∃ (p : Fin 6) (b : Fin 1024), i = ix2 p b := ⟨i 0, i 1, eq_ix2 i⟩
  simp only [Host.reduceAdd, Ideal.hostReduceAdd_def]
  rw [Ideal.hostReduceAdd_single reducesTo_S9x6x1024_S6x1024_d0 (by decide)]
  refine Eq.trans (congrArg₂ (· + ·) Ideal.ofBits_zero_f32 (Finset.sum_congr rfl fun k _ => ?_))
    (parts_eq_quadAt (X m c) (MU m c) (W m c) p b)
  rfl

set_option maxHeartbeats 2000000 in
/-- The kernel's result buffer after the host's last line. -/
theorem tail_eq (c : Dev nD) :
    Pipeline.afterTail₀ cfgs (dats m) 0 (V0 m) [hostOps1] c main_v20
      = select1 (quad (X m c) (MU m c) (W m c)) (m ((c : Thread nD τ).loc main_arg3)) := by
  have hA : Pipeline.withArrays (cfgs 0).spec c (V0 m c) (fun w => (dats m 0 c).arrAt w (cfgs 0).N) (Proc.devRef .tc main_v4)
      = outArr m c := (Pipeline.withArrays_arr spec0 launch0.win.arr_inj c _ _ 3).trans (final m c)
  have hL : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans
      (V_main_arg3 m c)
  unfold Pipeline.afterTail₀
  show StableHlo.after hostOps1 _ (Proc.devRef .tc main_v20) = _
  after_results
  rw [hA, hL, sum_parts]
  rfl

end Cert.KernelIdeal.Final

end
-- ==== Proof.Reference.lean ====
/-
  The reference's [6, 1024] array before its final selection is the quadratic form.

  Its stages, read at (c, b): the two spreads give x(b, k) and mu(c, k), their difference is d(c, b, k); the batched
  product is sum_k d(c, b, k) * w(c, k, j); the elementwise product with d and the sum over j from the zero constant
  give 0 + sum_j (sum_k d(c, b, k) * w(c, k, j)) * d(c, b, j).
-/
import proofs.«182003_j4939212390990_2_alg».proof.Proof.Gen.ReferenceIdeal.Read
import proofs.«182003_j4939212390990_2_alg».proof.Proof.Quadratic
import Idealize.ShloMosaic.Lib.ValueIdx
import Idealize.ShloMosaic.PureOps.Ideal.Laws

noncomputable section

open scoped BigOperators

namespace Cert.ReferenceIdeal.Form

open Cert.ReferenceIdeal Cert.ReferenceIdeal.Gen Cert.ReferenceIdeal.Read Idealize.ShloMosaic Idealize.ShloMosaic.ValueIdx

/-- The reduced array is the form, index by index. -/
theorem val_v7_eq (x0 : (⟨S1024x2096, .f32⟩ : BufTy).Contents (Elt Ideal)) (x1 : (⟨S6x2096, .f32⟩ : BufTy).Contents (Elt Ideal))
    (x2 : (⟨S6x2096x2096, .f32⟩ : BufTy).Contents (Elt Ideal)) :
    val_main_v7 (F := Ideal) x0 x1 x2 = Cert.Quadratic.quad x0 x1 x2 := by
  funext i
  obtain ⟨c, b, rfl⟩ : ∃ (c : Fin 6) (b : Fin 1024), i = ix2 c b := ⟨i 0, i 1, eq_ix2 i⟩
  have e4 : ∀ k : Fin 2096, val_main_v4 (F := Ideal) x0 x1 (ix3 c b k) = x0 (ix2 b k) - x1 (ix2 c k) := fun k => by
    have i0 : idx_main_v0 (idx_main_v2 (ix3 c b k)) = ix2 b k :=
      funext fun a => Fin.ext (by match a with | ⟨0, _⟩ => rfl | ⟨1, _⟩ => rfl)
    have i1 : idx_main_v1 (idx_main_v3 (ix3 c b k)) = ix2 c k :=
      funext fun a => Fin.ext (by match a with | ⟨0, _⟩ => rfl | ⟨1, _⟩ => rfl)
    rw [val_main_v4_apply, val_main_v2_apply, val_main_v0_apply, val_main_v3_apply, val_main_v1_apply, i0, i1]
    rfl
  have i7 : ∀ j : Fin 2096, idx_main_v7 (ix2 c b) j = ix3 c b j := fun j =>
    funext fun a => Fin.ext (by match a with | ⟨0, _⟩ => rfl | ⟨1, _⟩ => rfl | ⟨2, _⟩ => rfl)
  have il : ∀ j k : Fin 2096, lidx_main_v5 (ix3 c b j) k = ix3 c b k := fun j k =>
    funext fun a => Fin.ext (by match a with | ⟨0, _⟩ => rfl | ⟨1, _⟩ => rfl | ⟨2, _⟩ => rfl)
  have ir : ∀ j k : Fin 2096, ridx_main_v5 (ix3 c b j) k = ix3 c k j := fun j k =>
    funext fun a => Fin.ext (by match a with | ⟨0, _⟩ => rfl | ⟨1, _⟩ => rfl | ⟨2, _⟩ => rfl)
  rw [val_main_v7_apply]
  show val_main_cst (F := Ideal) _ + _ = Cert.Quadratic.quadAt x0 x1 x2 c b
  unfold Cert.Quadratic.quadAt
  refine congrArg₂ (· + ·) (show val_main_cst (F := Ideal) _ = (0 : EReal) from Ideal.ofBits_zero_f32)
    (Finset.sum_congr rfl fun j _ => ?_)
  rw [i7, val_main_v6_apply, val_main_v5_apply]
  show (∑ k : Fin 2096, _) * _ = _
  rw [e4]
  refine congrArg (· * _) (Finset.sum_congr rfl fun k _ => ?_)
  rw [il, ir, e4]

end Cert.ReferenceIdeal.Form

end
-- ==== Proof.lean ====
/-
  The certificate: a per-class Mahalanobis quadratic form, tiled against plain.

  For a batch x [1024, 2096], class means mu [6, 2096], matrices w [6, 2096, 2096] and labels [1024], both programs
  compute q(c, b) = 0 + sum_j (sum_i d(c, b, i) * w(c, i, j)) * d(c, b, j) with d(c, b, i) = x(b, i) - mu(c, i), and then
  select one entry of q per sample with index columns computed from the labels alone.  The reference computes q in one
  batched product, one elementwise product and one sum.  The kernel pads the three arrays with zeros to 2304 = 9 * 256,
  walks a 9 x 9 grid of 256 x 256 tiles of the matrices, accumulates for each column tile the contraction over the
  nine row tiles, and leaves nine partial sums that the host adds up.  Over the extended reals the two are one
  function: blockwise sums are sums in any commutative monoid, and every term that touches the padding is zero
  because there d = 0 - 0 = 0 and a product with 0 is 0 (Quadratic.lean).  No finiteness of the inputs is used.

  Kernel side: the found pieces of each control case are the body's stored values (Pieces.lean), those values read
  at an index (Payloads.lean), the input blocks and the padded host arrays at an index (Blocks.lean,
  HostArrays.lean), one point's step and the accumulator after every point by induction on the point (Steps.lean,
  Accum.lean), the written-back blocks, their cover, the final array and the host lines after the region
  (Final.lean).  Reference side: the stages of the reference's run chained to the form (Reference.lean).  The two
  programs' last host lines are the same selection applied to the same [6, 1024] array and the same labels.
  The ideal pass rewrote nothing, so the preservation claim is trivial.
-/
import proofs.«182003_j4939212390990_2_alg».proof.Defs
import proofs.«182003_j4939212390990_2_alg».proof.Proof.Gen.Kernel
import proofs.«182003_j4939212390990_2_alg».proof.Proof.Gen.Kernel.Skeleton
import proofs.«182003_j4939212390990_2_alg».proof.Proof.Gen.Kernel.Launch
import proofs.«182003_j4939212390990_2_alg».proof.Proof.Gen.Kernel.Points
import proofs.«182003_j4939212390990_2_alg».proof.Proof.Gen.Kernel.Frame
import proofs.«182003_j4939212390990_2_alg».proof.Proof.Gen.KernelIdeal
import proofs.«182003_j4939212390990_2_alg».proof.Proof.Gen.KernelIdeal.Skeleton
import proofs.«182003_j4939212390990_2_alg».proof.Proof.Gen.KernelIdeal.Launch
import proofs.«182003_j4939212390990_2_alg».proof.Proof.Gen.KernelIdeal.Points
import proofs.«182003_j4939212390990_2_alg».proof.Proof.Gen.KernelIdeal.Frame
import proofs.«182003_j4939212390990_2_alg».proof.Proof.Gen.ReferenceIdeal
import proofs.«182003_j4939212390990_2_alg».proof.Proof.Gen.Pre_finite_inputs
import proofs.«182003_j4939212390990_2_alg».proof.Proof.Gen.ReferenceIdeal.Run
import proofs.«182003_j4939212390990_2_alg».proof.Proof.Gen.ReferenceIdeal.Read
import proofs.«182003_j4939212390990_2_alg».proof.Proof.Final
import proofs.«182003_j4939212390990_2_alg».proof.Proof.Reference
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the selection applied to the form of the (agreeing) arguments. -/
theorem algebraic : Cert.algebraic_KernelIdeal_ReferenceIdeal := by
  intro m ρ m' ρ' _ hagree
  refine ⟨fun c => Cert.KernelIdeal.Final.select1
      (Cert.Quadratic.quad (Cert.KernelIdeal.HostArrays.X m c) (Cert.KernelIdeal.HostArrays.MU m c) (Cert.KernelIdeal.HostArrays.W m c))
      (m ((c : Thread Cert.KernelIdeal.nD Cert.KernelIdeal.τ).loc Cert.KernelIdeal.main_arg3)), ?_, ?_⟩
  · refine (θ_run Cert.KernelIdeal.defs _ _).mono (fun r h c => ⟨?_, ?_, ?_, ?_, ?_⟩) (Cert.KernelIdeal.Gen.run_main m ρ)
    · exact ((h c).2 Cert.KernelIdeal.main_v20 (Pipeline.mem_restRefs_of Cert.KernelIdeal.main_v20 (by decide) (by decide))).trans
        (Cert.KernelIdeal.Final.tail_eq m c)
    · exact ((h c).2 Cert.KernelIdeal.main_arg0 (Pipeline.mem_restRefs_of Cert.KernelIdeal.main_arg0 (by decide) (by decide))).trans
        (Cert.KernelIdeal.Gen.W_main_arg0 m (Cert.KernelIdeal.Gen.dats m) c)
    · exact ((h c).2 Cert.KernelIdeal.main_arg1 (Pipeline.mem_restRefs_of Cert.KernelIdeal.main_arg1 (by decide) (by decide))).trans
        (Cert.KernelIdeal.Gen.W_main_arg1 m (Cert.KernelIdeal.Gen.dats m) c)
    · exact ((h c).2 Cert.KernelIdeal.main_arg2 (Pipeline.mem_restRefs_of Cert.KernelIdeal.main_arg2 (by decide) (by decide))).trans
        (Cert.KernelIdeal.Gen.W_main_arg2 m (Cert.KernelIdeal.Gen.dats m) c)
    · exact ((h c).2 Cert.KernelIdeal.main_arg3 (Pipeline.mem_restRefs_of Cert.KernelIdeal.main_arg3 (by decide) (by decide))).trans
        (Cert.KernelIdeal.Gen.W_main_arg3 m (Cert.KernelIdeal.Gen.dats m) c)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v22_eq]
    unfold Cert.ReferenceIdeal.Read.val_main_v22
    rw [Cert.ReferenceIdeal.Form.val_v7_eq, (hagree c).1, (hagree c).2.1, (hagree c).2.2.1, (hagree c).2.2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
